-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x512 : Shape := ⟨2, ![256, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S32x256x512 : Shape := ⟨3, ![32, 256, 512]⟩
abbrev S32x1x512 : Shape := ⟨3, ![32, 1, 512]⟩
abbrev S32x512x512 : Shape := ⟨3, ![32, 512, 512]⟩
abbrev S32x512x64 : Shape := ⟨3, ![32, 512, 64]⟩
abbrev S32x1x64 : Shape := ⟨3, ![32, 1, 64]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S32x256x512 : S_.BroadcastsInDim S32x256x512 (![] : Fin 0 → Fin S32x256x512.rank)
  reducesTo_S32x256x512_S_d0_1_2 : S32x256x512.ReducesTo [0, 1, 2] S_
  bcast_S_S32x1x512 : S_.BroadcastsInDim S32x1x512 (![] : Fin 0 → Fin S32x1x512.rank)
  reducesTo_S32x1x512_S_d0_1_2 : S32x1x512.ReducesTo [0, 1, 2] S_
  bcast_S_S32x512x512 : S_.BroadcastsInDim S32x512x512 (![] : Fin 0 → Fin S32x512x512.rank)
  reducesTo_S32x512x512_S_d0_1_2 : S32x512x512.ReducesTo [0, 1, 2] S_
  bcast_S_S32x512x64 : S_.BroadcastsInDim S32x512x64 (![] : Fin 0 → Fin S32x512x64.rank)
  reducesTo_S32x512x64_S_d0_1_2 : S32x512x64.ReducesTo [0, 1, 2] S_
  bcast_S_S32x1x64 : S_.BroadcastsInDim S32x1x64 (![] : Fin 0 → Fin S32x1x64.rank)
  reducesTo_S32x1x64_S_d0_1_2 : S32x1x64.ReducesTo [0, 1, 2] S_

variable [Facts]

def fn_part5 {F : FTy → Type} [FloatOps F] (main_arg18 : FVec F S32x1x64 .f32) (main_v83 : IVec S_ 1) (main_v84 : FVec F S32x512x64 .f32) (main_cst_32 : FVec F S_ .f32) : IVec S_ 1 :=
  let main_v85 : FVec F S32x512x64 .f32 := broadcastInDim S32x512x64 ![] bcast_S_S32x512x64 main_cst_32
  let main_v86 : IVec S32x512x64 1 := cmpf .olt main_v84 main_v85
  let main_c_33 : IVec S_ 1 := constantI S_ 1 1#1
  let main_v87 : IVec S_ 1 := (fun x v => Host.reduce IntOp.andi x v reducesTo_S32x512x64_S_d0_1_2 h_S_) main_v86 main_c_33
  let main_v88 : IVec S_ 1 := andi main_v83 main_v87
  let main_v89 : FVec F S32x1x64 .f32 := Host.absf main_arg18
  let main_cst_34 : FVec F S_ .f32 := constant S_ .f32 0x7F800000#32
  let main_v90 : FVec F S32x1x64 .f32 := broadcastInDim S32x1x64 ![] bcast_S_S32x1x64 main_cst_34
  let main_v91 : IVec S32x1x64 1 := cmpf .olt main_v89 main_v90
  let main_c_35 : IVec S_ 1 := constantI S_ 1 1#1
  let main_v92 : IVec S_ 1 := (fun x v => Host.reduce IntOp.andi x v reducesTo_S32x1x64_S_d0_1_2 h_S_) main_v91 main_c_35
  let main_v93 : IVec S_ 1 := andi main_v88 main_v92
  main_v93

def fn_part4 {F : FTy → Type} [FloatOps F] (main_arg14 : FVec F S32x1x512 .f32) (main_arg15 : FVec F S32x512x512 .f32) (main_arg16 : FVec F S32x1x512 .f32) (main_arg17 : FVec F S32x512x64 .f32) (main_arg18 : FVec F S32x1x64 .f32) (main_v63 : IVec S_ 1) (main_v67 : IVec S_ 1) : IVec S_ 1 :=
  let main_v68 : IVec S_ 1 := andi main_v63 main_v67
  let main_v69 : FVec F S32x1x512 .f32 := Host.absf main_arg14
  let main_cst_26 : FVec F S_ .f32 := constant S_ .f32 0x7F800000#32
  let main_v70 : FVec F S32x1x512 .f32 := broadcastInDim S32x1x512 ![] bcast_S_S32x1x512 main_cst_26
  let main_v71 : IVec S32x1x512 1 := cmpf .olt main_v69 main_v70
  let main_c_27 : IVec S_ 1 := constantI S_ 1 1#1
  let main_v72 : IVec S_ 1 := (fun x v => Host.reduce IntOp.andi x v reducesTo_S32x1x512_S_d0_1_2 h_S_) main_v71 main_c_27
  let main_v73 : IVec S_ 1 := andi main_v68 main_v72
  let main_v74 : FVec F S32x512x512 .f32 := Host.absf main_arg15
  let main_cst_28 : FVec F S_ .f32 := constant S_ .f32 0x7F800000#32
  let main_v75 : FVec F S32x512x512 .f32 := broadcastInDim S32x512x512 ![] bcast_S_S32x512x512 main_cst_28
  let main_v76 : IVec S32x512x512 1 := cmpf .olt main_v74 main_v75
  let main_c_29 : IVec S_ 1 := constantI S_ 1 1#1
  let main_v77 : IVec S_ 1 := (fun x v => Host.reduce IntOp.andi x v reducesTo_S32x512x512_S_d0_1_2 h_S_) main_v76 main_c_29
  let main_v78 : IVec S_ 1 := andi main_v73 main_v77
  let main_v79 : FVec F S32x1x512 .f32 := Host.absf main_arg16
  let main_cst_30 : FVec F S_ .f32 := constant S_ .f32 0x7F800000#32
  let main_v80 : FVec F S32x1x512 .f32 := broadcastInDim S32x1x512 ![] bcast_S_S32x1x512 main_cst_30
  let main_v81 : IVec S32x1x512 1 := cmpf .olt main_v79 main_v80
  let main_c_31 : IVec S_ 1 := constantI S_ 1 1#1
  let main_v82 : IVec S_ 1 := (fun x v => Host.reduce IntOp.andi x v reducesTo_S32x1x512_S_d0_1_2 h_S_) main_v81 main_c_31
  let main_v83 : IVec S_ 1 := andi main_v78 main_v82
  let main_v84 : FVec F S32x512x64 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S64 .f32) (main_arg12 : FVec F S64 .f32) (main_arg13 : FVec F S32x256x512 .f32) (main_arg14 : FVec F S32x1x512 .f32) (main_arg15 : FVec F S32x512x512 .f32) (main_arg16 : FVec F S32x1x512 .f32) (main_arg17 : FVec F S32x512x64 .f32) (main_arg18 : FVec F S32x1x64 .f32) (main_v48 : IVec S_ 1) (main_v49 : FVec F S512x64 .f32) (main_v50 : FVec F S512x64 .f32) : IVec S_ 1 :=
  let main_v51 : IVec S512x64 1 := cmpf .olt main_v49 main_v50
  let main_c_19 : IVec S_ 1 := constantI S_ 1 1#1
  let main_v52 : IVec S_ 1 := (fun x v => Host.reduce IntOp.andi x v reducesTo_S512x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S32x256x512 .f32 := Host.absf main_arg13
  let main_cst_24 : FVec F S_ .f32 := constant S_ .f32 0x7F800000#32
  let main_v65 : FVec F S32x256x512 .f32 := broadcastInDim S32x256x512 ![] bcast_S_S32x256x512 main_cst_24
  let main_v66 : IVec S32x256x512 1 := cmpf .olt main_v64 main_v65
  let main_c_25 : IVec S_ 1 := constantI S_ 1 1#1
  let main_v67 : IVec S_ 1 := (fun x v => Host.reduce IntOp.andi x v reducesTo_S32x256x512_S_d0_1_2 h_S_) main_v66 main_c_25
  fn_part4 (F := F) main_arg14 main_arg15 main_arg16 main_arg17 main_arg18 main_v63 main_v67

def fn_part2 {F : FTy → Type} [FloatOps F] (main_arg7 : FVec F S512 .f32) (main_arg8 : FVec F S512 .f32) (main_arg9 : FVec F S512x64 .f32) (main_arg10 : FVec F S512x64 .f32) (main_arg11 : FVec F S64 .f32) (main_arg12 : FVec F S64 .f32) (main_arg13 : FVec F S32x256x512 .f32) (main_arg14 : FVec F S32x1x512 .f32) (main_arg15 : FVec F S32x512x512 .f32) (main_arg16 : FVec F S32x1x512 .f32) (main_arg17 : FVec F S32x512x64 .f32) (main_arg18 : FVec F S32x1x64 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x64 .f32 := Host.absf main_arg9
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S512x64 .f32 := Host.absf main_arg10
  let main_cst_18 : FVec F S_ .f32 := constant S_ .f32 0x7F800000#32
  let main_v50 : FVec F S512x64 .f32 := broadcastInDim S512x64 ![] bcast_S_S512x64 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512 .f32) (main_arg9 : FVec F S512x64 .f32) (main_arg10 : FVec F S512x64 .f32) (main_arg11 : FVec F S64 .f32) (main_arg12 : FVec F S64 .f32) (main_arg13 : FVec F S32x256x512 .f32) (main_arg14 : FVec F S32x1x512 .f32) (main_arg15 : FVec F S32x512x512 .f32) (main_arg16 : FVec F S32x1x512 .f32) (main_arg17 : FVec F S32x512x64 .f32) (main_arg18 : FVec F S32x1x64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S2048x256 .f32) (main_arg1 : FVec F S256x512 .f32) (main_arg2 : FVec F S256x512 .f32) (main_arg3 : FVec F S512 .f32) (main_arg4 : FVec F S512 .f32) (main_arg5 : FVec F S512x512 .f32) (main_arg6 : FVec F S512x512 .f32) (main_arg7 : FVec F S512 .f32) (main_arg8 : FVec F S512 .f32) (main_arg9 : FVec F S512x64 .f32) (main_arg10 : FVec F S512x64 .f32) (main_arg11 : FVec F S64 .f32) (main_arg12 : FVec F S64 .f32) (main_arg13 : FVec F S32x256x512 .f32) (main_arg14 : FVec F S32x1x512 .f32) (main_arg15 : FVec F S32x512x512 .f32) (main_arg16 : FVec F S32x1x512 .f32) (main_arg17 : FVec F S32x512x64 .f32) (main_arg18 : FVec F S32x1x64 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S2048x256 : Shape := ⟨2, ![2048, 256]⟩
abbrev S256x512 : Shape := ⟨2, ![256, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S32x256x512 : Shape := ⟨3, ![32, 256, 512]⟩
abbrev S32x1x512 : Shape := ⟨3, ![32, 1, 512]⟩
abbrev S32x512x512 : Shape := ⟨3, ![32, 512, 512]⟩
abbrev S32x512x64 : Shape := ⟨3, ![32, 512, 64]⟩
abbrev S32x1x64 : Shape := ⟨3, ![32, 1, 64]⟩
abbrev S32x2048x64 : Shape := ⟨3, ![32, 2048, 64]⟩
abbrev S1x256x512 : Shape := ⟨3, ![1, 256, 512]⟩
abbrev S1x1x512 : Shape := ⟨3, ![1, 1, 512]⟩
abbrev S1x512x512 : Shape := ⟨3, ![1, 512, 512]⟩
abbrev S1x512x64 : Shape := ⟨3, ![1, 512, 64]⟩
abbrev S1x1x64 : Shape := ⟨3, ![1, 1, 64]⟩
abbrev S1x2048x64 : Shape := ⟨3, ![1, 2048, 64]⟩
abbrev S1x512 : Shape := ⟨2, ![1, 512]⟩
abbrev S1x64 : Shape := ⟨2, ![1, 64]⟩
abbrev S256x256 : Shape := ⟨2, ![256, 256]⟩
abbrev S256x64 : Shape := ⟨2, ![256, 64]⟩
abbrev S1x256x64 : Shape := ⟨3, ![1, 256, 64]⟩

abbrev nBuf : Space → Nat
  | .hbm => 20
  | .vmem => 27
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S256x512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512x64, .f32⟩
  | .hbm, ⟨10, _⟩ => ⟨S512x64, .f32⟩
  | .hbm, ⟨11, _⟩ => ⟨S64, .f32⟩
  | .hbm, ⟨12, _⟩ => ⟨S64, .f32⟩
  | .hbm, ⟨13, _⟩ => ⟨S32x256x512, .f32⟩
  | .hbm, ⟨14, _⟩ => ⟨S32x1x512, .f32⟩
  | .hbm, ⟨15, _⟩ => ⟨S32x512x512, .f32⟩
  | .hbm, ⟨16, _⟩ => ⟨S32x1x512, .f32⟩
  | .hbm, ⟨17, _⟩ => ⟨S32x512x64, .f32⟩
  | .hbm, ⟨18, _⟩ => ⟨S32x1x64, .f32⟩
  | .hbm, ⟨19, _⟩ => ⟨S32x2048x64, .f32⟩
  | .local _ .vmem, ⟨0, _⟩ => ⟨S2048x256, .f32⟩
  | .local _ .vmem, ⟨1, _⟩ => ⟨S256x512, .f32⟩
  | .local _ .vmem, ⟨2, _⟩ => ⟨S256x512, .f32⟩
  | .local _ .vmem, ⟨3, _⟩ => ⟨S512, .f32⟩
  | .local _ .vmem, ⟨4, _⟩ => ⟨S512, .f32⟩
  | .local _ .vmem, ⟨5, _⟩ => ⟨S1x256x512, .f32⟩
  | .local _ .vmem, ⟨6, _⟩ => ⟨S1x256x512, .f32⟩
  | .local _ .vmem, ⟨7, _⟩ => ⟨S1x1x512, .f32⟩
  | .local _ .vmem, ⟨8, _⟩ => ⟨S1x1x512, .f32⟩
  | .local _ .vmem, ⟨9, _⟩ => ⟨S512x512, .f32⟩
  | .local _ .vmem, ⟨10, _⟩ => ⟨S512x512, .f32⟩
  | .local _ .vmem, ⟨11, _⟩ => ⟨S512, .f32⟩
  | .local _ .vmem, ⟨12, _⟩ => ⟨S512, .f32⟩
  | .local _ .vmem, ⟨13, _⟩ => ⟨S1x512x512, .f32⟩
  | .local _ .vmem, ⟨14, _⟩ => ⟨S1x512x512, .f32⟩
  | .local _ .vmem, ⟨15, _⟩ => ⟨S1x1x512, .f32⟩
  | .local _ .vmem, ⟨16, _⟩ => ⟨S1x1x512, .f32⟩
  | .local _ .vmem, ⟨17, _⟩ => ⟨S512x64, .f32⟩
  | .local _ .vmem, ⟨18, _⟩ => ⟨S512x64, .f32⟩
  | .local _ .vmem, ⟨19, _⟩ => ⟨S64, .f32⟩
  | .local _ .vmem, ⟨20, _⟩ => ⟨S64, .f32⟩
  | .local _ .vmem, ⟨21, _⟩ => ⟨S1x512x64, .f32⟩
  | .local _ .vmem, ⟨22, _⟩ => ⟨S1x512x64, .f32⟩
  | .local _ .vmem, ⟨23, _⟩ => ⟨S1x1x64, .f32⟩
  | .local _ .vmem, ⟨24, _⟩ => ⟨S1x1x64, .f32⟩
  | .local _ .vmem, ⟨25, _⟩ => ⟨S1x2048x64, .f32⟩
  | .local _ .vmem, ⟨26, _⟩ => ⟨S1x2048x64, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v51 : BitVec 32 := Scalar.addi c0_i32 c8_i32
  let c1_i32 : BitVec 32 := 1#32
  ⟨c0_i32, v51, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c256_i32 : BitVec 32 := 256#32
  let v52 : BitVec 32 := Scalar.muli arg21 c256_i32
  v52
def k0_off1 (k0_t1 : Fin k0_t1_loop.trips) : Fin 2 → Nat :=
  let c0_i32 : BitVec 32 := 0#32
  let c1_i32 : BitVec 32 := 1#32
  let arg21 : BitVec 32 := Scf.iv c0_i32 c1_i32 k0_t1
  let c256_i32 : BitVec 32 := 256#32
  let v52 : BitVec 32 := Scalar.muli arg21 c256_i32
  let v53 : BitVec 32 := v52
  let v54 : Index := Scalar.indexCast v53
  let c0_36 : Index := 0#32
  ![v54.toNat, 0]
def k0_off2 (k0_t1 : Fin k0_t1_loop.trips) : Fin 3 → Nat :=
  let c0_39 : Index := 0#32
  let c0_i32 : BitVec 32 := 0#32
  let c1_i32 : BitVec 32 := 1#32
  let arg21 : BitVec 32 := Scf.iv c0_i32 c1_i32 k0_t1
  let c256_i32 : BitVec 32 := 256#32
  let v52 : BitVec 32 := Scalar.muli arg21 c256_i32
  let v53 : BitVec 32 := v52
  let v70 : Index := Scalar.indexCast v53
  let c0_40 : Index := 0#32
  ![0, v70.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x512x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2048x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512_S512_0 : ∀ a, (![0] : Fin 1 → Nat) a + S512.size a ≤ S512.size a
  h_S512 : 0 < S512.numel
  shapeCasts_S512_S1x512 : S512.ShapeCasts S1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S512x64_S512x64_0_0 : ∀ a, (![0, 0] : Fin 2 → Nat) a + S512x64.size a ≤ S512x64.size a
  h_S512x64 : 0 < S512x64.numel
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  inb_S64_S64_0 : ∀ a, (![0] : Fin 1 → Nat) a + S64.size a ≤ S64.size a
  h_S64 : 0 < S64.numel
  shapeCasts_S64_S1x64 : S64.ShapeCasts S1x64
  h_S256x256 : 0 < S256x256.numel
  broadcasts_S1x512_S256x512 : S1x512.Broadcasts S256x512
  broadcasts_S1x64_S256x64 : S1x64.Broadcasts S256x64
  h_S1x256x64 : 0 < S1x256x64.numel
  shapeCasts_S1x256x64_S256x64 : S1x256x64.ShapeCasts S256x64
  shapeCasts_S256x64_S1x256x64 : S256x64.ShapeCasts S1x256x64
  dot_S256x256_S256x512_S256x512_1_0_0_1_n_n_wf : DotDims.WF S256x256 S256x512 S256x512 [1] [0] [0] [1] [] []
  dot_S256x512_S512x512_S256x512_1_0_0_1_n_n_wf : DotDims.WF S256x512 S512x512 S256x512 [1] [0] [0] [1] [] []
  dot_S256x512_S512x64_S256x64_1_0_0_1_n_n_wf : DotDims.WF S256x512 S512x64 S256x64 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x256.size a ≤ S2048x256.size a
  k0_off2_inb : ∀ k0_t1 : Fin k0_t1_loop.trips, ∀ a, (k0_off2 k0_t1) a + S1x256x64.size a ≤ S1x2048x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .f32 = 32 ∨ (Rect.block (s := S2048x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x512.size a ≤ S32x256x512.size a
  hwx0_5 : ∀ i : grid0.Coords, EltTy.bits .f32 = 32 ∨ (Rect.block (s := S32x256x512) S1x256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S32x1x512.size a
  hwx0_6 : ∀ i : grid0.Coords, EltTy.bits .f32 = 32 ∨ (Rect.block (s := S32x1x512) S1x1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x512.size a ≤ S32x512x512.size a
  hwx0_11 : ∀ i : grid0.Coords, EltTy.bits .f32 = 32 ∨ (Rect.block (s := S32x512x512) S1x512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x512.size a ≤ S32x1x512.size a
  hwx0_12 : ∀ i : grid0.Coords, EltTy.bits .f32 = 32 ∨ (Rect.block (s := S32x1x512) S1x1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x64.size a ≤ S512x64.size a
  hwx0_13 : ∀ i : grid0.Coords, EltTy.bits .f32 = 32 ∨ (Rect.block (s := S512x64) S512x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x64.size a ≤ S512x64.size a
  hwx0_14 : ∀ i : grid0.Coords, EltTy.bits .f32 = 32 ∨ (Rect.block (s := S512x64) S512x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64.size a ≤ S64.size a
  hwx0_15 : ∀ i : grid0.Coords, EltTy.bits .f32 = 32 ∨ (Rect.block (s := S64) S64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x512x64.size a ≤ S32x512x64.size a
  hwx0_17 : ∀ i : grid0.Coords, EltTy.bits .f32 = 32 ∨ (Rect.block (s := S32x512x64) S1x512x64.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x1x64.size a ≤ S32x1x64.size a
  hwx0_18 : ∀ i : grid0.Coords, EltTy.bits .f32 = 32 ∨ (Rect.block (s := S32x1x64) S1x1x64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x2048x64.size a ≤ S32x2048x64.size a
  hwx0_19 : ∀ i : grid0.Coords, EltTy.bits .f32 = 32 ∨ (Rect.block (s := S32x2048x64) S1x2048x64.size (cc0_transform_19 i) (hinb0_19 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf

abbrev win0_0 : Pipeline.Window sig grid0 :=
  Pipeline.Window.ofSpec (Memref.whole main_arg0) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S1x256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S1x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S1x512x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S1x1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S512x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S512x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1x512x64.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1x1x64.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0) S1x2048x64.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x512 : Shape := ⟨2, ![256, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S32x256x512 : Shape := ⟨3, ![32, 256, 512]⟩
abbrev S32x1x512 : Shape := ⟨3, ![32, 1, 512]⟩
abbrev S32x512x512 : Shape := ⟨3, ![32, 512, 512]⟩
abbrev S32x512x64 : Shape := ⟨3, ![32, 512, 64]⟩
abbrev S32x1x64 : Shape := ⟨3, ![32, 1, 64]⟩
abbrev S1x2048x256 : Shape := ⟨3, ![1, 2048, 256]⟩
abbrev S32x2048x256 : Shape := ⟨3, ![32, 2048, 256]⟩
abbrev S1x256x512 : Shape := ⟨3, ![1, 256, 512]⟩
abbrev S1x1x512 : Shape := ⟨3, ![1, 1, 512]⟩
abbrev S32x2048x512 : Shape := ⟨3, ![32, 2048, 512]⟩
abbrev S1x512x512 : Shape := ⟨3, ![1, 512, 512]⟩
abbrev S1x512x64 : Shape := ⟨3, ![1, 512, 64]⟩
abbrev S1x1x64 : Shape := ⟨3, ![1, 1, 64]⟩
abbrev S32x2048x64 : Shape := ⟨3, ![32, 2048, 64]⟩

abbrev nBuf : Space → Nat
  | .hbm => 74
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S256x512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512x64, .f32⟩
  | .hbm, ⟨10, _⟩ => ⟨S512x64, .f32⟩
  | .hbm, ⟨11, _⟩ => ⟨S64, .f32⟩
  | .hbm, ⟨12, _⟩ => ⟨S64, .f32⟩
  | .hbm, ⟨13, _⟩ => ⟨S32x256x512, .f32⟩
  | .hbm, ⟨14, _⟩ => ⟨S32x1x512, .f32⟩
  | .hbm, ⟨15, _⟩ => ⟨S32x512x512, .f32⟩
  | .hbm, ⟨16, _⟩ => ⟨S32x1x512, .f32⟩
  | .hbm, ⟨17, _⟩ => ⟨S32x512x64, .f32⟩
  | .hbm, ⟨18, _⟩ => ⟨S32x1x64, .f32⟩
  | .hbm, ⟨19, _⟩ => ⟨S1x2048x256, .f32⟩
  | .hbm, ⟨20, _⟩ => ⟨S32x2048x256, .f32⟩
  | .hbm, ⟨21, _⟩ => ⟨S256x512, .f32⟩
  | .hbm, ⟨22, _⟩ => ⟨S1x256x512, .f32⟩
  | .hbm, ⟨23, _⟩ => ⟨S32x256x512, .f32⟩
  | .hbm, ⟨24, _⟩ => ⟨S32x256x512, .f32⟩
  | .hbm, ⟨25, _⟩ => ⟨S1x256x512, .f32⟩
  | .hbm, ⟨26, _⟩ => ⟨S32x256x512, .f32⟩
  | .hbm, ⟨27, _⟩ => ⟨S32x256x512, .f32⟩
  | .hbm, ⟨28, _⟩ => ⟨S512, .f32⟩
  | .hbm, ⟨29, _⟩ => ⟨S1x1x512, .f32⟩
  | .hbm, ⟨30, _⟩ => ⟨S32x1x512, .f32⟩
  | .hbm, ⟨31, _⟩ => ⟨S32x1x512, .f32⟩
  | .hbm, ⟨32, _⟩ => ⟨S1x1x512, .f32⟩
  | .hbm, ⟨33, _⟩ => ⟨S32x1x512, .f32⟩
  | .hbm, ⟨34, _⟩ => ⟨S32x1x512, .f32⟩
  | .hbm, ⟨35, _⟩ => ⟨S32x2048x512, .f32⟩
  | .hbm, ⟨36, _⟩ => ⟨S32x2048x512, .f32⟩
  | .hbm, ⟨37, _⟩ => ⟨S32x2048x512, .f32⟩
  | .hbm, ⟨38, _⟩ => ⟨S32x2048x512, .f32⟩
  | .hbm, ⟨39, _⟩ => ⟨S512x512, .f32⟩
  | .hbm, ⟨40, _⟩ => ⟨S1x512x512, .f32⟩
  | .hbm, ⟨41, _⟩ => ⟨S32x512x512, .f32⟩
  | .hbm, ⟨42, _⟩ => ⟨S32x512x512, .f32⟩
  | .hbm, ⟨43, _⟩ => ⟨S1x512x512, .f32⟩
  | .hbm, ⟨44, _⟩ => ⟨S32x512x512, .f32⟩
  | .hbm, ⟨45, _⟩ => ⟨S32x512x512, .f32⟩
  | .hbm, ⟨46, _⟩ => ⟨S512, .f32⟩
  | .hbm, ⟨47, _⟩ => ⟨S1x1x512, .f32⟩
  | .hbm, ⟨48, _⟩ => ⟨S32x1x512, .f32⟩
  | .hbm, ⟨49, _⟩ => ⟨S32x1x512, .f32⟩
  | .hbm, ⟨50, _⟩ => ⟨S1x1x512, .f32⟩
  | .hbm, ⟨51, _⟩ => ⟨S32x1x512, .f32⟩
  | .hbm, ⟨52, _⟩ => ⟨S32x1x512, .f32⟩
  | .hbm, ⟨53, _⟩ => ⟨S32x2048x512, .f32⟩
  | .hbm, ⟨54, _⟩ => ⟨S32x2048x512, .f32⟩
  | .hbm, ⟨55, _⟩ => ⟨S32x2048x512, .f32⟩
  | .hbm, ⟨56, _⟩ => ⟨S32x2048x512, .f32⟩
  | .hbm, ⟨57, _⟩ => ⟨S512x64, .f32⟩
  | .hbm, ⟨58, _⟩ => ⟨S1x512x64, .f32⟩
  | .hbm, ⟨59, _⟩ => ⟨S32x512x64, .f32⟩
  | .hbm, ⟨60, _⟩ => ⟨S32x512x64, .f32⟩
  | .hbm, ⟨61, _⟩ => ⟨S1x512x64, .f32⟩
  | .hbm, ⟨62, _⟩ => ⟨S32x512x64, .f32⟩
  | .hbm, ⟨63, _⟩ => ⟨S32x512x64, .f32⟩
  | .hbm, ⟨64, _⟩ => ⟨S64, .f32⟩
  | .hbm, ⟨65, _⟩ => ⟨S1x1x64, .f32⟩
  | .hbm, ⟨66, _⟩ => ⟨S32x1x64, .f32⟩
  | .hbm, ⟨67, _⟩ => ⟨S32x1x64, .f32⟩
  | .hbm, ⟨68, _⟩ => ⟨S1x1x64, .f32⟩
  | .hbm, ⟨69, _⟩ => ⟨S32x1x64, .f32⟩
  | .hbm, ⟨70, _⟩ => ⟨S32x1x64, .f32⟩
  | .hbm, ⟨71, _⟩ => ⟨S32x2048x64, .f32⟩
  | .hbm, ⟨72, _⟩ => ⟨S32x2048x64, .f32⟩
  | .hbm, ⟨73, _⟩ => ⟨S32x2048x64, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  bcast_S2048x256_S1x2048x256_1_2 : S2048x256.BroadcastsInDim S1x2048x256 (![1, 2] : Fin 2 → Fin S1x2048x256.rank)
  bcast_S1x2048x256_S32x2048x256_0_1_2 : S1x2048x256.BroadcastsInDim S32x2048x256 (![0, 1, 2] : Fin 3 → Fin S32x2048x256.rank)
  bcast_S256x512_S1x256x512_1_2 : S256x512.BroadcastsInDim S1x256x512 (![1, 2] : Fin 2 → Fin S1x256x512.rank)
  bcast_S1x256x512_S32x256x512_0_1_2 : S1x256x512.BroadcastsInDim S32x256x512 (![0, 1, 2] : Fin 3 → Fin S32x256x512.rank)
  bcast_S512_S1x1x512_2 : S512.BroadcastsInDim S1x1x512 (![2] : Fin 1 → Fin S1x1x512.rank)
  bcast_S1x1x512_S32x1x512_0_1_2 : S1x1x512.BroadcastsInDim S32x1x512 (![0, 1, 2] : Fin 3 → Fin S32x1x512.rank)
  bcast_S32x1x512_S32x2048x512_0_1_2 : S32x1x512.BroadcastsInDim S32x2048x512 (![0, 1, 2] : Fin 3 → Fin S32x2048x512.rank)
  bcast_S512x512_S1x512x512_1_2 : S512x512.BroadcastsInDim S1x512x512 (![1, 2] : Fin 2 → Fin S1x512x512.rank)
  bcast_S1x512x512_S32x512x512_0_1_2 : S1x512x512.BroadcastsInDim S32x512x512 (![0, 1, 2] : Fin 3 → Fin S32x512x512.rank)
  bcast_S512x64_S1x512x64_1_2 : S512x64.BroadcastsInDim S1x512x64 (![1, 2] : Fin 2 → Fin S1x512x64.rank)
  bcast_S1x512x64_S32x512x64_0_1_2 : S1x512x64.BroadcastsInDim S32x512x64 (![0, 1, 2] : Fin 3 → Fin S32x512x64.rank)
  bcast_S64_S1x1x64_2 : S64.BroadcastsInDim S1x1x64 (![2] : Fin 1 → Fin S1x1x64.rank)
  bcast_S1x1x64_S32x1x64_0_1_2 : S1x1x64.BroadcastsInDim S32x1x64 (![0, 1, 2] : Fin 3 → Fin S32x1x64.rank)
  bcast_S32x1x64_S32x2048x64_0_1_2 : S32x1x64.BroadcastsInDim S32x2048x64 (![0, 1, 2] : Fin 3 → Fin S32x2048x64.rank)
  dot_S32x2048x256_S32x256x512_S32x2048x512_2_1_1_2_0_0_wf : DotDims.WF S32x2048x256 S32x256x512 S32x2048x512 [2] [1] [1] [2] [0] [0]
  dot_S32x2048x512_S32x512x512_S32x2048x512_2_1_1_2_0_0_wf : DotDims.WF S32x2048x512 S32x512x512 S32x2048x512 [2] [1] [1] [2] [0] [0]
  dot_S32x2048x512_S32x512x64_S32x2048x64_2_1_1_2_0_0_wf : DotDims.WF S32x2048x512 S32x512x64 S32x2048x64 [2] [1] [1] [2] [0] [0]

variable [Facts₀]

def dot_S32x2048x256_S32x256x512_S32x2048x512_2_1_1_2_0_0 : DotDims S32x2048x256 S32x256x512 S32x2048x512 where
  lhsContracting := [2]
  rhsContracting := [1]
  lhsNonContracting := [1]
  rhsNonContracting := [2]
  lhsBatch := [0]
  rhsBatch := [0]
  wf := dot_S32x2048x256_S32x256x512_S32x2048x512_2_1_1_2_0_0_wf
def dot_S32x2048x512_S32x512x512_S32x2048x512_2_1_1_2_0_0 : DotDims S32x2048x512 S32x512x512 S32x2048x512 where
  lhsContracting := [2]
  rhsContracting := [1]
  lhsNonContracting := [1]
  rhsNonContracting := [2]
  lhsBatch := [0]
  rhsBatch := [0]
  wf := dot_S32x2048x512_S32x512x512_S32x2048x512_2_1_1_2_0_0_wf
def dot_S32x2048x512_S32x512x64_S32x2048x64_2_1_1_2_0_0 : DotDims S32x2048x512 S32x512x64 S32x2048x64 where
  lhsContracting := [2]
  rhsContracting := [1]
  lhsNonContracting := [1]
  rhsNonContracting := [2]
  lhsBatch := [0]
  rhsBatch := [0]
  wf := dot_S32x2048x512_S32x512x64_S32x2048x64_2_1_1_2_0_0_wf

class Facts : Prop extends Facts₀ where

variable [Facts]
-- ==== Proof.Spec.lean ====
/-
  The function both programs compute, written once over the extended reals with no program in sight.

  A Bayesian three-layer perceptron is evaluated for 32 weight samples. For sample `s` every weight and every
  bias is drawn by reparameterisation: `z · exp(log σ) + μ` with its own standard-normal draw `z`
  (`sampled`). One row `x` of the batch then goes through
      h₁ = tanh (x · W₀ + b₀),   h₂ = tanh (h₁ · W₁ + b₁),   out = h₂ · W₂ + b₂
  (`mlp`), the three products being plain sums over the contracted axis. `mlp` takes the row, the three weight
  matrices and the three bias rows as functions of their coordinates, so that whoever uses it says where each
  coordinate is read from; `net` instantiates it at the nineteen argument arrays, indexed by (sample, row, column).
  No law of arithmetic beyond this spelling is needed to join the two programs: each of them is `net`, read
  at an index.
-/
import Idealize.ShloMosaic.PureOps.Ideal
import Idealize.ShloMosaic.Lib.ValueIdx

noncomputable section

namespace Cert.Spec

open Idealize.ShloMosaic Idealize.ShloMosaic.ValueIdx

/-- One reparameterised draw: the noise `z` scaled by `exp` of the log-deviation `ls`, plus the mean `mu`. -/
def sampled (z ls mu : EReal) : EReal := z * Ideal.exp ls + mu

/-- One batch row through the three layers, at output column `o`:
    `Σ_{k₂} tanh (Σ_{k₁} tanh (Σ_{k₀} x k₀ · W₀ k₀ k₁ + b₀ k₁) · W₁ k₁ k₂ + b₁ k₂) · W₂ k₂ o + b₂ o`. -/
def mlp (x : Fin 256 → EReal) (W0 : Fin 256 → Fin 512 → EReal) (b0 : Fin 512 → EReal)
    (W1 : Fin 512 → Fin 512 → EReal) (b1 : Fin 512 → EReal)
    (W2 : Fin 512 → Fin 64 → EReal) (b2 : Fin 64 → EReal) (o : Fin 64) : EReal :=
  (∑ k2 : Fin 512, Ideal.tanh ((∑ k1 : Fin 512, Ideal.tanh ((∑ k0 : Fin 256, x k0 * W0 k0 k1) + b0 k1) * W1 k1 k2) + b1 k2)
      * W2 k2 o) + b2 o

/-- The nineteen argument arrays, over their literal shapes: the batch, and per layer the weight mean and
    log-deviation, the bias mean and log-deviation, and the per-sample noise of the weights and of the bias. -/
structure Args where
  x   : (⟨2, ![2048, 256]⟩ : Shape).Idx → EReal
  wm0 : (⟨2, ![256, 512]⟩ : Shape).Idx → EReal
  wl0 : (⟨2, ![256, 512]⟩ : Shape).Idx → EReal
  bm0 : (⟨1, ![512]⟩ : Shape).Idx → EReal
  bl0 : (⟨1, ![512]⟩ : Shape).Idx → EReal
  wm1 : (⟨2, ![512, 512]⟩ : Shape).Idx → EReal
  wl1 : (⟨2, ![512, 512]⟩ : Shape).Idx → EReal
  bm1 : (⟨1, ![512]⟩ : Shape).Idx → EReal
  bl1 : (⟨1, ![512]⟩ : Shape).Idx → EReal
  wm2 : (⟨2, ![512, 64]⟩ : Shape).Idx → EReal
  wl2 : (⟨2, ![512, 64]⟩ : Shape).Idx → EReal
  bm2 : (⟨1, ![64]⟩ : Shape).Idx → EReal
  bl2 : (⟨1, ![64]⟩ : Shape).Idx → EReal
  zw0 : (⟨3, ![32, 256, 512]⟩ : Shape).Idx → EReal
  zb0 : (⟨3, ![32, 1, 512]⟩ : Shape).Idx → EReal
  zw1 : (⟨3, ![32, 512, 512]⟩ : Shape).Idx → EReal
  zb1 : (⟨3, ![32, 1, 512]⟩ : Shape).Idx → EReal
  zw2 : (⟨3, ![32, 512, 64]⟩ : Shape).Idx → EReal
  zb2 : (⟨3, ![32, 1, 64]⟩ : Shape).Idx → EReal

/-- The network's output for sample `s`, batch row `r`, column `o`: row `r` of the batch through the three layers
    whose weights and biases are sample `s`'s draws. -/
def netAt (A : Args) (s : Fin 32) (r : Fin 2048) (o : Fin 64) : EReal :=
  mlp (fun k0 => A.x (ix2 r k0))
    (fun k0 k1 => sampled (A.zw0 (ix3 s k0 k1)) (A.wl0 (ix2 k0 k1)) (A.wm0 (ix2 k0 k1)))
    (fun k1 => sampled (A.zb0 (ix3 s 0 k1)) (A.bl0 (ix1 k1)) (A.bm0 (ix1 k1)))
    (fun k1 k2 => sampled (A.zw1 (ix3 s k1 k2)) (A.wl1 (ix2 k1 k2)) (A.wm1 (ix2 k1 k2)))
    (fun k2 => sampled (A.zb1 (ix3 s 0 k2)) (A.bl1 (ix1 k2)) (A.bm1 (ix1 k2)))
    (fun k2 o => sampled (A.zw2 (ix3 s k2 o)) (A.wl2 (ix2 k2 o)) (A.wm2 (ix2 k2 o)))
    (fun o => sampled (A.zb2 (ix3 s 0 o)) (A.bl2 (ix1 o)) (A.bm2 (ix1 o)))
    o

/-- The first hidden activation of batch row `r` under sample `s`, at hidden unit `j`. -/
def hid1 (A : Args) (s : Fin 32) (r : Fin 2048) (j : Fin 512) : EReal :=
  Ideal.tanh ((∑ k : Fin 256, A.x (ix2 r k) * sampled (A.zw0 (ix3 s k j)) (A.wl0 (ix2 k j)) (A.wm0 (ix2 k j)))
    + sampled (A.zb0 (ix3 s 0 j)) (A.bl0 (ix1 j)) (A.bm0 (ix1 j)))

/-- The second hidden activation. -/
def hid2 (A : Args) (s : Fin 32) (r : Fin 2048) (j : Fin 512) : EReal :=
  Ideal.tanh ((∑ k : Fin 512, hid1 A s r k * sampled (A.zw1 (ix3 s k j)) (A.wl1 (ix2 k j)) (A.wm1 (ix2 k j)))
    + sampled (A.zb1 (ix3 s 0 j)) (A.bl1 (ix1 j)) (A.bm1 (ix1 j)))

/-- The network's output is the last layer applied to the second hidden activation (`mlp` spelt layer by layer). -/
theorem netAt_eq (A : Args) (s : Fin 32) (r : Fin 2048) (o : Fin 64) :
    netAt A s r o = (∑ k : Fin 512, hid2 A s r k * sampled (A.zw2 (ix3 s k o)) (A.wl2 (ix2 k o)) (A.wm2 (ix2 k o)))
      + sampled (A.zb2 (ix3 s 0 o)) (A.bl2 (ix1 o)) (A.bm2 (ix1 o)) := rfl

/-- The whole result array [32, 2048, 64]. -/
def net (A : Args) : (⟨3, ![32, 2048, 64]⟩ : Shape).Idx → EReal := fun i => netAt A (i 0) (i 1) (i 2)

theorem net_apply (A : Args) (s : Fin 32) (r : Fin 2048) (o : Fin 64) : net A (ix3 s r o) = netAt A s r o := rfl

end Cert.Spec

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.KPay.lean ====
/-
  The kernel's arithmetic, read at an index over the extended reals.

  One trip of the kernel's loop stores a [1, 256, 64] tile: 256 rows of the batch through the three layers. The
  printed payload of that store is cut here into the pieces a reader would name — the last layer's sampled
  weights `lastW` and bias `lastB` (the first two layers' are sampled before the loop and arrive as the
  payload's arguments), the two hidden activations `hidden1`, `hidden2`, and the tile `tile` — and each piece is
  read at an index: a matrix-unit product into a zero accumulator is the plain sum over the contracted axis, a
  change of float format is the identity, a [1, n] row broadcast over the rows reads its one row, a unit axis
  added or dropped by a shape cast moves no element. Put together, entry (r, o) of the tile is `Spec.mlp` of
  row r of the loaded rows (`tile_at`). The four payloads computed before the loop are one sampled draw per
  element (`weights_at`, `bias_at`).
-/
import proofs.«130882_j31464930411175_1_alg».proof.Proof.Gen.KernelIdeal.Skeleton
import proofs.«130882_j31464930411175_1_alg».proof.Proof.Spec
import proofs.«130882_j31464930411175_1_alg».proof.Proof.LibMatProd
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## A matrix-unit product into a zero accumulator, and a dense layer, at an index -/

/-- A product on the matrix unit into the zero splat, for dimension numbers that contract the left operand's
    columns against the right operand's rows: entry (r, q) is `Σ_k lhs (r, k) · rhs (k, q)`. -/
theorem matmul_zero_at {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    {φ₁ φ₂ : FTy} (lhs : FVec Ideal ⟨2, ![M, K]⟩ φ₁) (rhs : FVec Ideal ⟨2, ![K, N]⟩ φ₂) (r : Fin M) (q : Fin N) :
    matmul D none lhs rhs (constant (F := Ideal) ⟨2, ![M, N]⟩ .f32 0x00000000#32) (ix2 r q)
      = ∑ k : Fin K, lhs (ix2 r k) * rhs (ix2 k q) :=
  (Ideal.matmul_constant_zero_apply D none lhs rhs (ix2 r q)).trans
    (Cert.Gcn.Dense.sum_contr_eq_prod D hr hs hl0 hl1 hr0 hr1 lhs rhs (ix2 r q))

/-- The first layer's product: [256, 256] rows times [256, 512] weights. -/
theorem mm1_at {φ₁ φ₂ : FTy} (lhs : FVec Ideal S256x256 φ₁) (rhs : FVec Ideal S256x512 φ₂) (r : Fin 256) (q : Fin 512) :
    matmul dot_S256x256_S256x512_S256x512_1_0_0_1_n_n none lhs rhs (constant (F := Ideal) S256x512 .f32 0x00000000#32) (ix2 r q)
      = ∑ k : Fin 256, lhs (ix2 r k) * rhs (ix2 k q) :=
  matmul_zero_at dot_S256x256_S256x512_S256x512_1_0_0_1_n_n rfl rfl
    (fun i q => by
      unfold DotDims.lhsIdx
      rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
      rfl)
    (fun i q => dot_S256x256_S256x512_S256x512_1_0_0_1_n_n.lhsIdx_val_of_single rfl i q)
    (fun i q => dot_S256x256_S256x512_S256x512_1_0_0_1_n_n.rhsIdx_val_of_single rfl i q)
    (fun i q => by
      unfold DotDims.rhsIdx
      rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
      rfl)
    lhs rhs r q

/-- The second layer's product: [256, 512] activations times [512, 512] weights. -/
theorem mm2_at {φ₁ φ₂ : FTy} (lhs : FVec Ideal S256x512 φ₁) (rhs : FVec Ideal S512x512 φ₂) (r : Fin 256) (q : Fin 512) :
    matmul dot_S256x512_S512x512_S256x512_1_0_0_1_n_n none lhs rhs (constant (F := Ideal) S256x512 .f32 0x00000000#32) (ix2 r q)
      = ∑ k : Fin 512, lhs (ix2 r k) * rhs (ix2 k q) :=
  matmul_zero_at dot_S256x512_S512x512_S256x512_1_0_0_1_n_n rfl rfl
    (fun i q => by
      unfold DotDims.lhsIdx
      rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
      rfl)
    (fun i q => dot_S256x512_S512x512_S256x512_1_0_0_1_n_n.lhsIdx_val_of_single rfl i q)
    (fun i q => dot_S256x512_S512x512_S256x512_1_0_0_1_n_n.rhsIdx_val_of_single rfl i q)
    (fun i q => by
      unfold DotDims.rhsIdx
      rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
      rfl)
    lhs rhs r q

/-- The last layer's product: [256, 512] activations times [512, 64] weights. -/
theorem mm3_at {φ₁ φ₂ : FTy} (lhs : FVec Ideal S256x512 φ₁) (rhs : FVec Ideal S512x64 φ₂) (r : Fin 256) (q : Fin 64) :
    matmul dot_S256x512_S512x64_S256x64_1_0_0_1_n_n none lhs rhs (constant (F := Ideal) S256x64 .f32 0x00000000#32) (ix2 r q)
      = ∑ k : Fin 512, lhs (ix2 r k) * rhs (ix2 k q) :=
  matmul_zero_at dot_S256x512_S512x64_S256x64_1_0_0_1_n_n rfl rfl
    (fun i q => by
      unfold DotDims.lhsIdx
      rw [dif_neg (show ¬(0 : Fin S256x512.rank) ∈ dot_S256x512_S512x64_S256x64_1_0_0_1_n_n.lhsBatch by decide), dif_pos (show (0 : Fin S256x512.rank) ∈ dot_S256x512_S512x64_S256x64_1_0_0_1_n_n.lhsNonContracting by decide)]
      rfl)
    (fun i q => dot_S256x512_S512x64_S256x64_1_0_0_1_n_n.lhsIdx_val_of_single rfl i q)
    (fun i q => dot_S256x512_S512x64_S256x64_1_0_0_1_n_n.rhsIdx_val_of_single rfl i q)
    (fun i q => by
      unfold DotDims.rhsIdx
      rw [dif_neg (show ¬(1 : Fin S512x64.rank) ∈ dot_S256x512_S512x64_S256x64_1_0_0_1_n_n.rhsBatch by decide), dif_pos (show (1 : Fin S512x64.rank) ∈ dot_S256x512_S512x64_S256x64_1_0_0_1_n_n.rhsNonContracting by decide)]
      rfl)
    lhs rhs r q

/-! ## The pieces of the tile's payload -/

/-- The last layer's weights for the sample at hand, as the loop body recomputes them from the three loaded blocks. -/
def lastW (v34 : Vec Ideal S1x512x64 .f32) (v36 v39 : Vec Ideal S512x64 .f32) : FVec Ideal S512x64 .bf16 :=
  truncf .bf16 (addf (mulf (shapeCast S512x64 v34 shapeCasts_S1x512x64_S512x64) (exp v36)) v39) bitsLt_bf16_f32

/-- The last layer's bias row [1, 64]. -/
def lastB (v42 : Vec Ideal S1x1x64 .f32) (v44 v48 : Vec Ideal S64 .f32) : FVec Ideal S1x64 .f32 :=
  addf (mulf (shapeCast S1x64 v42 shapeCasts_S1x1x64_S1x64) (shapeCast S1x64 (exp v44) shapeCasts_S64_S1x64))
    (shapeCast S1x64 v48 shapeCasts_S64_S1x64)

/-- The first hidden activation of the 256 loaded rows. -/
def hidden1 (v7 : FVec Ideal S256x512 .bf16) (v16 : FVec Ideal S1x512 .f32) (v55 : Vec Ideal S256x256 .f32) : FVec Ideal S256x512 .bf16 :=
  truncf .bf16 (tanh (addf (matmul dot_S256x256_S256x512_S256x512_1_0_0_1_n_n none (truncf .bf16 v55 bitsLt_bf16_f32) v7 (constant S256x512 .f32 0x00000000#32))
    (broadcastTo S256x512 v16 broadcasts_S1x512_S256x512))) bitsLt_bf16_f32

/-- The second hidden activation. -/
def hidden2 (h1 : FVec Ideal S256x512 .bf16) (v24 : FVec Ideal S512x512 .bf16) (v33 : FVec Ideal S1x512 .f32) : FVec Ideal S256x512 .bf16 :=
  truncf .bf16 (tanh (addf (matmul dot_S256x512_S512x512_S256x512_1_0_0_1_n_n none h1 v24 (constant S256x512 .f32 0x00000000#32))
    (broadcastTo S256x512 v33 broadcasts_S1x512_S256x512))) bitsLt_bf16_f32

/-- The stored tile [1, 256, 64]. -/
def tile (h2 : FVec Ideal S256x512 .bf16) (w2 : FVec Ideal S512x64 .bf16) (b2 : FVec Ideal S1x64 .f32) : FVec Ideal S1x256x64 .f32 :=
  shapeCast S1x256x64 (addf (matmul dot_S256x512_S512x64_S256x64_1_0_0_1_n_n none h2 w2 (constant S256x64 .f32 0x00000000#32))
    (broadcastTo S256x64 b2 broadcasts_S1x64_S256x64)) shapeCasts_S256x64_S1x256x64

/-- The printed payload of the loop's store is the tile of these pieces. -/
theorem pay1_eq (v7 : FVec Ideal S256x512 .bf16) (v16 : FVec Ideal S1x512 .f32) (v24 : FVec Ideal S512x512 .bf16) (v33 : FVec Ideal S1x512 .f32)
    (v34 : Vec Ideal S1x512x64 .f32) (v36 v39 : Vec Ideal S512x64 .f32) (v42 : Vec Ideal S1x1x64 .f32) (v44 v48 : Vec Ideal S64 .f32)
    (v55 : Vec Ideal S256x256 .f32) :
    k0_pay1 (F := Ideal) v7 v16 v24 v33 v34 v36 v39 v42 v44 v48 v55
      = tile (hidden2 (hidden1 v7 v16 v55) v24 v33) (lastW v34 v36 v39) (lastB v42 v44 v48) := rfl

/-! ## Each piece at an index -/

theorem lastW_at (v34 : Vec Ideal S1x512x64 .f32) (v36 v39 : Vec Ideal S512x64 .f32) (k : Fin 512) (o : Fin 64) :
    lastW v34 v36 v39 (ix2 k o) = Spec.sampled (v34 (ix3 (0 : Fin 1) k o)) (v36 (ix2 k o)) (v39 (ix2 k o)) := by
  show shapeCast S512x64 v34 shapeCasts_S1x512x64_S512x64 (ix2 k o) * Ideal.exp (v36 (ix2 k o)) + v39 (ix2 k o) = _
  rw [shapeCast_1ab_ab_apply]
  rfl

theorem lastB_at (v42 : Vec Ideal S1x1x64 .f32) (v44 v48 : Vec Ideal S64 .f32) (u : Fin 1) (o : Fin 64) :
    lastB v42 v44 v48 (ix2 u o) = Spec.sampled (v42 (ix3 (0 : Fin 1) (0 : Fin 1) o)) (v44 (ix1 o)) (v48 (ix1 o)) := by
  show shapeCast S1x64 v42 shapeCasts_S1x1x64_S1x64 (ix2 u o) * shapeCast S1x64 (exp (F := Ideal) (φ := .f32) v44) shapeCasts_S64_S1x64 (ix2 u o)
      + shapeCast S1x64 v48 shapeCasts_S64_S1x64 (ix2 u o) = _
  have hu : u = (0 : Fin 1) := Subsingleton.elim _ _
  subst hu
  rw [shapeCast_1ab_ab_apply, shapeCast_a_1a_apply, shapeCast_a_1a_apply]
  rfl

theorem hidden1_at (v7 : FVec Ideal S256x512 .bf16) (v16 : FVec Ideal S1x512 .f32) (v55 : Vec Ideal S256x256 .f32) (r : Fin 256) (j : Fin 512) :
    hidden1 v7 v16 v55 (ix2 r j) = Ideal.tanh ((∑ k : Fin 256, v55 (ix2 r k) * v7 (ix2 k j)) + v16 (ix2 (0 : Fin 1) j)) := by
  show Ideal.tanh (matmul dot_S256x256_S256x512_S256x512_1_0_0_1_n_n none (truncf .bf16 v55 bitsLt_bf16_f32) v7 (constant (F := Ideal) S256x512 .f32 0x00000000#32) (ix2 r j)
      + broadcastTo S256x512 v16 broadcasts_S1x512_S256x512 (ix2 r j)) = _
  rw [mm1_at, broadcastTo_1b_ab_apply]
  rfl

theorem hidden2_at (h1 : FVec Ideal S256x512 .bf16) (v24 : FVec Ideal S512x512 .bf16) (v33 : FVec Ideal S1x512 .f32) (r : Fin 256) (j : Fin 512) :
    hidden2 h1 v24 v33 (ix2 r j) = Ideal.tanh ((∑ k : Fin 512, h1 (ix2 r k) * v24 (ix2 k j)) + v33 (ix2 (0 : Fin 1) j)) := by
  show Ideal.tanh (matmul dot_S256x512_S512x512_S256x512_1_0_0_1_n_n none h1 v24 (constant (F := Ideal) S256x512 .f32 0x00000000#32) (ix2 r j)
      + broadcastTo S256x512 v33 broadcasts_S1x512_S256x512 (ix2 r j)) = _
  rw [mm2_at, broadcastTo_1b_ab_apply]

theorem tile_at (h2 : FVec Ideal S256x512 .bf16) (w2 : FVec Ideal S512x64 .bf16) (b2 : FVec Ideal S1x64 .f32) (u : Fin 1) (r : Fin 256) (o : Fin 64) :
    tile h2 w2 b2 (ix3 u r o) = (∑ k : Fin 512, h2 (ix2 r k) * w2 (ix2 k o)) + b2 (ix2 (0 : Fin 1) o) := by
  unfold tile
  rw [shapeCast_ab_1ab_apply]
  show matmul dot_S256x512_S512x64_S256x64_1_0_0_1_n_n none h2 w2 (constant (F := Ideal) S256x64 .f32 0x00000000#32) (ix2 r o)
      + broadcastTo S256x64 b2 broadcasts_S1x64_S256x64 (ix2 r o) = _
  rw [mm3_at, broadcastTo_1b_ab_apply]

/-- Entry (r, o) of the stored tile: row r of the loaded rows through the three layers. -/
theorem pay1_at (v7 : FVec Ideal S256x512 .bf16) (v16 : FVec Ideal S1x512 .f32) (v24 : FVec Ideal S512x512 .bf16) (v33 : FVec Ideal S1x512 .f32)
    (v34 : Vec Ideal S1x512x64 .f32) (v36 v39 : Vec Ideal S512x64 .f32) (v42 : Vec Ideal S1x1x64 .f32) (v44 v48 : Vec Ideal S64 .f32)
    (v55 : Vec Ideal S256x256 .f32) (u : Fin 1) (r : Fin 256) (o : Fin 64) :
    k0_pay1 (F := Ideal) v7 v16 v24 v33 v34 v36 v39 v42 v44 v48 v55 (ix3 u r o)
      = Spec.mlp (fun k0 => v55 (ix2 r k0)) (fun k0 k1 => v7 (ix2 k0 k1)) (fun k1 => v16 (ix2 (0 : Fin 1) k1))
          (fun k1 k2 => v24 (ix2 k1 k2)) (fun k2 => v33 (ix2 (0 : Fin 1) k2))
          (fun k2 o => Spec.sampled (v34 (ix3 (0 : Fin 1) k2 o)) (v36 (ix2 k2 o)) (v39 (ix2 k2 o)))
          (fun o => Spec.sampled (v42 (ix3 (0 : Fin 1) (0 : Fin 1) o)) (v44 (ix1 o)) (v48 (ix1 o))) o := by
  rw [pay1_eq, tile_at, lastB_at]
  unfold Spec.mlp
  refine congrArg (· + _) (Finset.sum_congr rfl fun k2 _ => ?_)
  rw [lastW_at, hidden2_at]
  refine congrArg (fun z => Ideal.tanh (z + _) * _) (Finset.sum_congr rfl fun k1 _ => ?_)
  rw [hidden1_at]

/-! ## The payloads computed before the loop -/

/-- A weight matrix sampled before the loop, at (a, b) — the first layer's. -/
theorem pay2_at (v0 : Vec Ideal S1x256x512 .f32) (v2 v5 : Vec Ideal S256x512 .f32) (a : Fin 256) (b : Fin 512) :
    k0_pay2 (F := Ideal) v0 v2 v5 (ix2 a b) = Spec.sampled (v0 (ix3 (0 : Fin 1) a b)) (v2 (ix2 a b)) (v5 (ix2 a b)) := by
  show shapeCast S256x512 v0 shapeCasts_S1x256x512_S256x512 (ix2 a b) * Ideal.exp (v2 (ix2 a b)) + v5 (ix2 a b) = _
  rw [shapeCast_1ab_ab_apply]
  rfl

/-- The second layer's. -/
theorem pay4_at (v17 : Vec Ideal S1x512x512 .f32) (v19 v22 : Vec Ideal S512x512 .f32) (a : Fin 512) (b : Fin 512) :
    k0_pay4 (F := Ideal) v17 v19 v22 (ix2 a b) = Spec.sampled (v17 (ix3 (0 : Fin 1) a b)) (v19 (ix2 a b)) (v22 (ix2 a b)) := by
  show shapeCast S512x512 v17 shapeCasts_S1x512x512_S512x512 (ix2 a b) * Ideal.exp (v19 (ix2 a b)) + v22 (ix2 a b) = _
  rw [shapeCast_1ab_ab_apply]
  rfl

/-- A bias row sampled before the loop, at (0, b) — the first layer's. -/
theorem pay3_at (v8 : Vec Ideal S1x1x512 .f32) (v10 v14 : Vec Ideal S512 .f32) (u : Fin 1) (b : Fin 512) :
    k0_pay3 (F := Ideal) v8 v10 v14 (ix2 u b) = Spec.sampled (v8 (ix3 (0 : Fin 1) (0 : Fin 1) b)) (v10 (ix1 b)) (v14 (ix1 b)) := by
  show shapeCast S1x512 v8 shapeCasts_S1x1x512_S1x512 (ix2 u b) * shapeCast S1x512 (exp (F := Ideal) (φ := .f32) v10) shapeCasts_S512_S1x512 (ix2 u b)
      + shapeCast S1x512 v14 shapeCasts_S512_S1x512 (ix2 u b) = _
  have hu : u = (0 : Fin 1) := Subsingleton.elim _ _
  subst hu
  rw [shapeCast_1ab_ab_apply, shapeCast_a_1a_apply, shapeCast_a_1a_apply]
  rfl

/-- The second layer's. -/
theorem pay5_at (v25 : Vec Ideal S1x1x512 .f32) (v27 v31 : Vec Ideal S512 .f32) (u : Fin 1) (b : Fin 512) :
    k0_pay5 (F := Ideal) v25 v27 v31 (ix2 u b) = Spec.sampled (v25 (ix3 (0 : Fin 1) (0 : Fin 1) b)) (v27 (ix1 b)) (v31 (ix1 b)) := by
  show shapeCast S1x512 v25 shapeCasts_S1x1x512_S1x512 (ix2 u b) * shapeCast S1x512 (exp (F := Ideal) (φ := .f32) v27) shapeCasts_S512_S1x512 (ix2 u b)
      + shapeCast S1x512 v31 shapeCasts_S512_S1x512 (ix2 u b) = _
  have hu : u = (0 : Fin 1) := Subsingleton.elim _ _
  subst hu
  rw [shapeCast_1ab_ab_apply, shapeCast_a_1a_apply, shapeCast_a_1a_apply]
  rfl

end Cert.KernelIdeal.Pay

end
-- ==== Proof.KPieces.lean ====
/-
  What the kernel's body leaves in the output's staging buffer, as one function of the input blocks.

  The body samples the first two layers' weights and biases once, then runs eight trips; trip k loads rows
  256·k … 256·k + 255 of the batch block, pushes them through the three layers and stores the [1, 256, 64] tile at
  the same rows of the [1, 2048, 64] output block. The executor's record of the run is a list of stored pieces:
  the trips' pieces, last trip first. Read once here (`trip_piece`, `run_pieces`), every piece is the
  restriction to its rectangle of ONE function of the block index — `blockFn`: entry (0, ρ, o) is `Spec.mlp` of
  row ρ of the batch block under the sample's draws — because tile entry (r, o) of trip k is row 256·k + r
  (`piece_at`). The eight rectangles tile the block, so the buffer ends holding `blockFn` (`out_eq`).
-/
import proofs.«130882_j31464930411175_1_alg».proof.Proof.Gen.KernelIdeal.Frame
import proofs.«130882_j31464930411175_1_alg».proof.Proof.KPay

set_option maxRecDepth 16384

noncomputable section

namespace Cert.KernelIdeal.Pieces

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The run's record, read once -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- Trip k stores ONE piece: at the trip's row offset of the output block, the tile computed from the batch rows
    loaded at the trip's row offset. -/
theorem trip_piece (c : Dev nD) (i : grid0.Coords) (arg1 : Memref sig .tc .vmem S2048x256 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S512 .f32) (harg4 : arg4.IsWhole) (arg5 : Memref sig .tc .vmem S512 .f32) (harg5 : arg5.IsWhole) (arg6 : Memref sig .tc .vmem S1x256x512 .f32) (harg6 : arg6.IsWhole) (arg7 : Memref sig .tc .vmem S1x1x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S1x1x512 .f32) (harg13 : arg13.IsWhole) (arg14 : Memref sig .tc .vmem S512x64 .f32) (harg14 : arg14.IsWhole) (arg15 : Memref sig .tc .vmem S512x64 .f32) (harg15 : arg15.IsWhole) (arg16 : Memref sig .tc .vmem S64 .f32) (harg16 : arg16.IsWhole) (arg17 : Memref sig .tc .vmem S64 .f32) (harg17 : arg17.IsWhole) (arg18 : Memref sig .tc .vmem S1x512x64 .f32) (harg18 : arg18.IsWhole) (arg19 : Memref sig .tc .vmem S1x1x64 .f32) (harg19 : arg19.IsWhole) (arg20 : Memref sig .tc .vmem S1x2048x64 .f32) (harg20 : arg20.IsWhole)
    (v7 : FVec F S256x512 .bf16) (v16 : FVec F S1x512 .f32) (v24 : FVec F S512x512 .bf16) (v33 : FVec F S1x512 .f32) (v34 : Vec F S1x512x64 .f32) (v36 : Vec F S512x64 .f32) (v39 : Vec F S512x64 .f32) (v42 : Vec F S1x1x64 .f32) (v44 : Vec F S64 .f32) (v48 : Vec F S64 .f32) (x0 : Vec F S2048x256 .f32) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v7 v16 v24 v33 v34 v36 v39 v42 v44 v48 (harg1.unread x0) k
      = [⟨Rect.unit (s := S1x2048x64) (k0_off2 k) S1x256x64.size (k0_off2_inb k),
          k0_pay1 v7 v16 v24 v33 v34 v36 v39 v42 v44 v48 (View.ld x0 (Rect.unit (s := S2048x256) (k0_off1 k) S256x256.size (k0_off1_inb k)))⟩] := by
  unfold tripL_k0_t1 trip_k0_t1
  dsimp only
  rw [View.readAt_eq_ld, Memref.IsWhole.read_unread]

/-- The run's pieces: the trips' pieces, over the weights and biases sampled before the loop from the blocks
    as loaded. -/
theorem run_pieces (c : Dev nD) (i : grid0.Coords) (arg1 : Memref sig .tc .vmem S2048x256 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S512 .f32) (harg4 : arg4.IsWhole) (arg5 : Memref sig .tc .vmem S512 .f32) (harg5 : arg5.IsWhole) (arg6 : Memref sig .tc .vmem S1x256x512 .f32) (harg6 : arg6.IsWhole) (arg7 : Memref sig .tc .vmem S1x1x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S1x1x512 .f32) (harg13 : arg13.IsWhole) (arg14 : Memref sig .tc .vmem S512x64 .f32) (harg14 : arg14.IsWhole) (arg15 : Memref sig .tc .vmem S512x64 .f32) (harg15 : arg15.IsWhole) (arg16 : Memref sig .tc .vmem S64 .f32) (harg16 : arg16.IsWhole) (arg17 : Memref sig .tc .vmem S64 .f32) (harg17 : arg17.IsWhole) (arg18 : Memref sig .tc .vmem S1x512x64 .f32) (harg18 : arg18.IsWhole) (arg19 : Memref sig .tc .vmem S1x1x64 .f32) (harg19 : arg19.IsWhole) (arg20 : Memref sig .tc .vmem S1x2048x64 .f32) (harg20 : arg20.IsWhole)
    (x0 : Vec F S2048x256 .f32) (x1 : Vec F S256x512 .f32) (x2 : Vec F S256x512 .f32) (x3 : Vec F S512 .f32) (x4 : Vec F S512 .f32) (x5 : Vec F S1x256x512 .f32) (x6 : Vec F S1x1x512 .f32) (x7 : Vec F S512x512 .f32) (x8 : Vec F S512x512 .f32) (x9 : Vec F S512 .f32) (x10 : Vec F S512 .f32) (x11 : Vec F S1x512x512 .f32) (x12 : Vec F S1x1x512 .f32) (x13 : Vec F S512x64 .f32) (x14 : Vec F S512x64 .f32) (x15 : Vec F S64 .f32) (x16 : Vec F S64 .f32) (x17 : Vec F S1x512x64 .f32) (x18 : Vec F S1x1x64 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18).1
      = pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (k0_pay2 x5 x2 x1) (k0_pay3 x6 x4 x3) (k0_pay4 x11 x8 x7) (k0_pay5 x12 x10 x9) x17 x14 x13 x18 x16 x15 (harg1.unread x0) (Scf.trips (0#32) (Scalar.addi 0#32 8#32) 1#32) := by
  unfold kernelRun0_A
  dsimp only
  sl_unfold_words
  simp only [View.readAt_eq_ld, Memref.IsWhole.read_unread, View.ld_unit_zero (S := S1x256x512) hz3, View.ld_unit_zero (S := S256x512) hz2,
    View.ld_unit_zero (S := S1x1x512) hz3, View.ld_unit_zero (S := S512) hz1, View.ld_unit_zero (S := S1x512x512) hz3,
    View.ld_unit_zero (S := S512x512) hz2, View.ld_unit_zero (S := S1x512x64) hz3, View.ld_unit_zero (S := S512x64) hz2,
    View.ld_unit_zero (S := S1x1x64) hz3, View.ld_unit_zero (S := S64) hz1]

/-- A piece of the trips before `n` is a piece of some trip. -/
theorem mem_trips (c : Dev nD) (i : grid0.Coords) (arg1 : Memref sig .tc .vmem S2048x256 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S512 .f32) (harg4 : arg4.IsWhole) (arg5 : Memref sig .tc .vmem S512 .f32) (harg5 : arg5.IsWhole) (arg6 : Memref sig .tc .vmem S1x256x512 .f32) (harg6 : arg6.IsWhole) (arg7 : Memref sig .tc .vmem S1x1x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S1x1x512 .f32) (harg13 : arg13.IsWhole) (arg14 : Memref sig .tc .vmem S512x64 .f32) (harg14 : arg14.IsWhole) (arg15 : Memref sig .tc .vmem S512x64 .f32) (harg15 : arg15.IsWhole) (arg16 : Memref sig .tc .vmem S64 .f32) (harg16 : arg16.IsWhole) (arg17 : Memref sig .tc .vmem S64 .f32) (harg17 : arg17.IsWhole) (arg18 : Memref sig .tc .vmem S1x512x64 .f32) (harg18 : arg18.IsWhole) (arg19 : Memref sig .tc .vmem S1x1x64 .f32) (harg19 : arg19.IsWhole) (arg20 : Memref sig .tc .vmem S1x2048x64 .f32) (harg20 : arg20.IsWhole)
    (v7 : FVec F S256x512 .bf16) (v16 : FVec F S1x512 .f32) (v24 : FVec F S512x512 .bf16) (v33 : FVec F S1x512 .f32) (v34 : Vec F S1x512x64 .f32) (v36 : Vec F S512x64 .f32) (v39 : Vec F S512x64 .f32) (v42 : Vec F S1x1x64 .f32) (v44 : Vec F S64 .f32) (v48 : Vec F S64 .f32) (X : BufTy.Contents (Elt F) arg1.view.ty) (p : View.Piece (Elt F) S1x2048x64 .f32) (n : ℕ) :
    p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v7 v16 v24 v33 v34 v36 v39 v42 v44 v48 X n →
      ∃ k : Fin k0_t1_loop.trips, p ∈ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v7 v16 v24 v33 v34 v36 v39 v42 v44 v48 X k := by
  induction n with
  | zero => intro h; rw [pb_k0_t1.eq_1] at h; exact absurd h List.not_mem_nil
  | succ n ih =>
    intro h
    rw [pb_k0_t1.eq_2] at h
    unfold pb_k0_t1Step at h
    split at h
    · rename_i hn
      rcases List.mem_append.mp h with h' | h'
      · exact ⟨⟨n, hn⟩, h'⟩
      · exact ih h'
    · exact ih h

/-! ## Every piece restricts one function of the block index -/

/-- The output block as a function of the nineteen input blocks: entry (0, ρ, o) is row ρ of the batch block
    through the three layers with the sample's draws (the noise blocks have the one sample's slab). -/
def blockFn (x0 : Vec Ideal S2048x256 .f32) (x1 : Vec Ideal S256x512 .f32) (x2 : Vec Ideal S256x512 .f32) (x3 : Vec Ideal S512 .f32) (x4 : Vec Ideal S512 .f32) (x5 : Vec Ideal S1x256x512 .f32) (x6 : Vec Ideal S1x1x512 .f32) (x7 : Vec Ideal S512x512 .f32) (x8 : Vec Ideal S512x512 .f32) (x9 : Vec Ideal S512 .f32) (x10 : Vec Ideal S512 .f32) (x11 : Vec Ideal S1x512x512 .f32) (x12 : Vec Ideal S1x1x512 .f32) (x13 : Vec Ideal S512x64 .f32) (x14 : Vec Ideal S512x64 .f32) (x15 : Vec Ideal S64 .f32) (x16 : Vec Ideal S64 .f32) (x17 : Vec Ideal S1x512x64 .f32) (x18 : Vec Ideal S1x1x64 .f32) : S1x2048x64.Idx → EReal := fun y =>
  Spec.mlp (fun k0 => x0 (ix2 (y 1) k0))
    (fun k0 k1 => Spec.sampled (x5 (ix3 (0 : Fin 1) k0 k1)) (x2 (ix2 k0 k1)) (x1 (ix2 k0 k1)))
    (fun k1 => Spec.sampled (x6 (ix3 (0 : Fin 1) (0 : Fin 1) k1)) (x4 (ix1 k1)) (x3 (ix1 k1)))
    (fun k1 k2 => Spec.sampled (x11 (ix3 (0 : Fin 1) k1 k2)) (x8 (ix2 k1 k2)) (x7 (ix2 k1 k2)))
    (fun k2 => Spec.sampled (x12 (ix3 (0 : Fin 1) (0 : Fin 1) k2)) (x10 (ix1 k2)) (x9 (ix1 k2)))
    (fun k2 o => Spec.sampled (x17 (ix3 (0 : Fin 1) k2 o)) (x14 (ix2 k2 o)) (x13 (ix2 k2 o)))
    (fun o => Spec.sampled (x18 (ix3 (0 : Fin 1) (0 : Fin 1) o)) (x16 (ix1 o)) (x15 (ix1 o)))
    (y 2)

theorem blockFn_apply (x0 : Vec Ideal S2048x256 .f32) (x1 : Vec Ideal S256x512 .f32) (x2 : Vec Ideal S256x512 .f32) (x3 : Vec Ideal S512 .f32) (x4 : Vec Ideal S512 .f32) (x5 : Vec Ideal S1x256x512 .f32) (x6 : Vec Ideal S1x1x512 .f32) (x7 : Vec Ideal S512x512 .f32) (x8 : Vec Ideal S512x512 .f32) (x9 : Vec Ideal S512 .f32) (x10 : Vec Ideal S512 .f32) (x11 : Vec Ideal S1x512x512 .f32) (x12 : Vec Ideal S1x1x512 .f32) (x13 : Vec Ideal S512x64 .f32) (x14 : Vec Ideal S512x64 .f32) (x15 : Vec Ideal S64 .f32) (x16 : Vec Ideal S64 .f32) (x17 : Vec Ideal S1x512x64 .f32) (x18 : Vec Ideal S1x1x64 .f32) (u : Fin 1) (ρ : Fin 2048) (o : Fin 64) :
    blockFn x0 x1 x2 x3 x4 x5 x6 x7 x8 x9 x10 x11 x12 x13 x14 x15 x16 x17 x18 (ix3 u ρ o)
      = Spec.mlp (fun k0 => x0 (ix2 ρ k0))
          (fun k0 k1 => Spec.sampled (x5 (ix3 (0 : Fin 1) k0 k1)) (x2 (ix2 k0 k1)) (x1 (ix2 k0 k1)))
          (fun k1 => Spec.sampled (x6 (ix3 (0 : Fin 1) (0 : Fin 1) k1)) (x4 (ix1 k1)) (x3 (ix1 k1)))
          (fun k1 k2 => Spec.sampled (x11 (ix3 (0 : Fin 1) k1 k2)) (x8 (ix2 k1 k2)) (x7 (ix2 k1 k2)))
          (fun k2 => Spec.sampled (x12 (ix3 (0 : Fin 1) (0 : Fin 1) k2)) (x10 (ix1 k2)) (x9 (ix1 k2)))
          (fun k2 o => Spec.sampled (x17 (ix3 (0 : Fin 1) k2 o)) (x14 (ix2 k2 o)) (x13 (ix2 k2 o)))
          (fun o => Spec.sampled (x18 (ix3 (0 : Fin 1) (0 : Fin 1) o)) (x16 (ix1 o)) (x15 (ix1 o)))
          o := rfl

/-- Row r of trip k's tile is row 256·k + r of the block. -/
def rowOf (k : Fin k0_t1_loop.trips) (r : Fin 256) : Fin 2048 :=
  ⟨256 * k.val + r.val, by
    have hk : k.val < 8 := Nat.lt_of_lt_of_le k.isLt k0_t1_abs.2.1
    have hr := r.isLt
    omega⟩

/-- Where trip k's store puts tile entry (u, r, o). -/
theorem emb_tile (k : Fin k0_t1_loop.trips) (u : Fin 1) (r : Fin 256) (o : Fin 64) :
    (Rect.unit (s := S1x2048x64) (k0_off2 k) S1x256x64.size (k0_off2_inb k)).emb (ix3 u r o) = ix3 u (rowOf k r) o := by
  funext a
  apply Fin.ext
  have e := k0_off2_eq k
  match a with
  | ⟨0, _⟩ =>
    show k0_off2 k 0 + 1 * u.val = u.val
    rw [e]; show 0 + 1 * u.val = u.val; omega
  | ⟨1, _⟩ =>
    show k0_off2 k 1 + 1 * r.val = 256 * k.val + r.val
    rw [e]; show 256 * k.val + 1 * r.val = 256 * k.val + r.val; omega
  | ⟨2, _⟩ =>
    show k0_off2 k 2 + 1 * o.val = o.val
    rw [e]; show 0 + 1 * o.val = o.val; omega

/-- What trip k's load reads at (r, j): the batch block at row 256·k + r. -/
theorem row_tile (x0 : Vec Ideal S2048x256 .f32) (k : Fin k0_t1_loop.trips) (r : Fin 256) (j : Fin 256) :
    View.ld x0 (Rect.unit (s := S2048x256) (k0_off1 k) S256x256.size (k0_off1_inb k)) (ix2 r j) = x0 (ix2 (rowOf k r) j) := by
  show x0 ((Rect.unit (s := S2048x256) (k0_off1 k) S256x256.size (k0_off1_inb k)).idx (ix2 r j)) = _
  refine congrArg x0 (funext fun a => Fin.ext ?_)
  have e := k0_off1_eq k
  match a with
  | ⟨0, _⟩ =>
    show k0_off1 k 0 + 1 * r.val = 256 * k.val + r.val
    rw [e]; show 256 * k.val + 1 * r.val = 256 * k.val + r.val; omega
  | ⟨1, _⟩ =>
    show k0_off1 k 1 + 1 * j.val = j.val
    rw [e]; show 0 + 1 * j.val = j.val; omega

/-- Trip k's piece is `blockFn` on its rectangle. -/
theorem piece_at (x0 : Vec Ideal S2048x256 .f32) (x1 : Vec Ideal S256x512 .f32) (x2 : Vec Ideal S256x512 .f32) (x3 : Vec Ideal S512 .f32) (x4 : Vec Ideal S512 .f32) (x5 : Vec Ideal S1x256x512 .f32) (x6 : Vec Ideal S1x1x512 .f32) (x7 : Vec Ideal S512x512 .f32) (x8 : Vec Ideal S512x512 .f32) (x9 : Vec Ideal S512 .f32) (x10 : Vec Ideal S512 .f32) (x11 : Vec Ideal S1x512x512 .f32) (x12 : Vec Ideal S1x1x512 .f32) (x13 : Vec Ideal S512x64 .f32) (x14 : Vec Ideal S512x64 .f32) (x15 : Vec Ideal S64 .f32) (x16 : Vec Ideal S64 .f32) (x17 : Vec Ideal S1x512x64 .f32) (x18 : Vec Ideal S1x1x64 .f32) (k : Fin k0_t1_loop.trips) (x : S1x256x64.Idx) :
    k0_pay1 (F := Ideal) (k0_pay2 x5 x2 x1) (k0_pay3 x6 x4 x3) (k0_pay4 x11 x8 x7) (k0_pay5 x12 x10 x9) x17 x14 x13 x18 x16 x15
        (View.ld x0 (Rect.unit (s := S2048x256) (k0_off1 k) S256x256.size (k0_off1_inb k))) x
      = blockFn x0 x1 x2 x3 x4 x5 x6 x7 x8 x9 x10 x11 x12 x13 x14 x15 x16 x17 x18 ((Rect.unit (s := S1x2048x64) (k0_off2 k) S1x256x64.size (k0_off2_inb k)).emb x) := by
  obtain ⟨u, r, o, rfl⟩ : ∃ (u : Fin 1) (r : Fin 256) (o : Fin 64), x = ix3 u r o := ⟨x 0, x 1, x 2, eq_ix3 x⟩
  rw [Pay.pay1_at, emb_tile k u r o, blockFn_apply]
  simp only [Pay.pay2_at, Pay.pay3_at, Pay.pay4_at, Pay.pay5_at]
  exact congrArg (fun f => Spec.mlp f _ _ _ _ _ _ o) (funext fun k0 => row_tile x0 k r k0)

/-- THE STAGING BUFFER AFTER THE BODY: `blockFn` of the input blocks. -/
theorem out_eq (c : Dev nD) (i : grid0.Coords) (arg1 : Memref sig .tc .vmem S2048x256 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S512 .f32) (harg4 : arg4.IsWhole) (arg5 : Memref sig .tc .vmem S512 .f32) (harg5 : arg5.IsWhole) (arg6 : Memref sig .tc .vmem S1x256x512 .f32) (harg6 : arg6.IsWhole) (arg7 : Memref sig .tc .vmem S1x1x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S1x1x512 .f32) (harg13 : arg13.IsWhole) (arg14 : Memref sig .tc .vmem S512x64 .f32) (harg14 : arg14.IsWhole) (arg15 : Memref sig .tc .vmem S512x64 .f32) (harg15 : arg15.IsWhole) (arg16 : Memref sig .tc .vmem S64 .f32) (harg16 : arg16.IsWhole) (arg17 : Memref sig .tc .vmem S64 .f32) (harg17 : arg17.IsWhole) (arg18 : Memref sig .tc .vmem S1x512x64 .f32) (harg18 : arg18.IsWhole) (arg19 : Memref sig .tc .vmem S1x1x64 .f32) (harg19 : arg19.IsWhole) (arg20 : Memref sig .tc .vmem S1x2048x64 .f32) (harg20 : arg20.IsWhole)
    (x0 : Vec Ideal S2048x256 .f32) (x1 : Vec Ideal S256x512 .f32) (x2 : Vec Ideal S256x512 .f32) (x3 : Vec Ideal S512 .f32) (x4 : Vec Ideal S512 .f32) (x5 : Vec Ideal S1x256x512 .f32) (x6 : Vec Ideal S1x1x512 .f32) (x7 : Vec Ideal S512x512 .f32) (x8 : Vec Ideal S512x512 .f32) (x9 : Vec Ideal S512 .f32) (x10 : Vec Ideal S512 .f32) (x11 : Vec Ideal S1x512x512 .f32) (x12 : Vec Ideal S1x1x512 .f32) (x13 : Vec Ideal S512x64 .f32) (x14 : Vec Ideal S512x64 .f32) (x15 : Vec Ideal S64 .f32) (x16 : Vec Ideal S64 .f32) (x17 : Vec Ideal S1x512x64 .f32) (x18 : Vec Ideal S1x1x64 .f32) (y : S1x2048x64.Idx) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 y = blockFn x0 x1 x2 x3 x4 x5 x6 x7 x8 x9 x10 x11 x12 x13 x14 x15 x16 x17 x18 y := by
  unfold out0_A_19
  refine View.read_writes_apply_of_pieces _ _ (blockFn x0 x1 x2 x3 x4 x5 x6 x7 x8 x9 x10 x11 x12 x13 x14 x15 x16 x17 x18) _ ?_ y
    (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 y)
  intro p hp x
  rw [run_pieces] at hp
  obtain ⟨k, hk⟩ := mem_trips c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ p _ hp
  rw [trip_piece] at hk
  obtain rfl := List.mem_singleton.mp hk
  exact piece_at x0 x1 x2 x3 x4 x5 x6 x7 x8 x9 x10 x11 x12 x13 x14 x15 x16 x17 x18 k x

end Cert.KernelIdeal.Pieces

end
-- ==== Proof.KBlocks.lean ====
/-
  The input windows' blocks, one window at a time.

  The grid has one point per weight sample. At point t the pipeline stages, for each shared array (the batch, the
  weight and bias means and log-deviations), the whole array — block index 0 on every axis — and for each of the
  six noise arrays the slab of sample t — block index (t, 0, 0) of a block holding one sample (`idx0` … `idx18`,
  decided over the 32 points). A block's entry sits in its array, on each axis, at block index × block size plus
  the coordinate inside the block; so an entry of an input block is the argument's entry at the same
  coordinates, with the sample coordinate t put in front for a noise array (`blk0` … `blk18`). The nineteen
  statements are one statement per row of the table window ↦ (argument, block shape).
-/
import proofs.«130882_j31464930411175_1_alg».proof.Proof.Gen.KernelIdeal.Frame
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The sample a grid point works on. -/
def smp (t : Fin cfg0.N) : Fin 32 := ⟨t.val, by have h : cfg0.N = 32 := N_0; have := t.isLt; omega⟩

/-! ## The block index of every input window at every point -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 1) = 0 :=
  (by decide +kernel : ∀ t : Fin grid0.N, _)
theorem idx17 : ∀ t : Fin cfg0.N, win0_17.index t (0 : Fin 3) = t.val ∧ win0_17.index t (1 : Fin 3) = 0 ∧ win0_17.index t (2 : Fin 3) = 0 :=
  (by decide +kernel : ∀ t : Fin grid0.N, _)
theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)

/-! ## An input block's entry is the argument's entry -/

theorem blk0 (c : Dev nD) (t : Fin cfg0.N) (a : Fin 2048) (b : Fin 256) :
    (iblk m c 0 t : Vec Ideal S2048x256 .f32) (ix2 a b) = V m c main_arg0 (ix2 a b) := by
  obtain ⟨e0, e1⟩ := idx0 t
  show V m c main_arg0 (((cfg0.win 0).blk t).view.emb (ix2 a b)) = V m c main_arg0 (ix2 a b)
  refine congrArg (V m c main_arg0) (funext fun d => Fin.ext ?_)
  match d with
  | ⟨0, _⟩ => show win0_0.index t (0 : Fin 2) * 2048 + 1 * a.val = a.val; rw [e0]; omega
  | ⟨1, _⟩ => show win0_0.index t (1 : Fin 2) * 256 + 1 * b.val = b.val; rw [e1]; omega

theorem blk1 (c : Dev nD) (t : Fin cfg0.N) (a : Fin 256) (b : Fin 512) :
    (iblk m c 1 t : Vec Ideal S256x512 .f32) (ix2 a b) = V m c main_arg1 (ix2 a b) := by
  obtain ⟨e0, e1⟩ := idx1 t
  show V m c main_arg1 (((cfg0.win 1).blk t).view.emb (ix2 a b)) = V m c main_arg1 (ix2 a b)
  refine congrArg (V m c main_arg1) (funext fun d => Fin.ext ?_)
  match d with
  | ⟨0, _⟩ => show win0_1.index t (0 : Fin 2) * 256 + 1 * a.val = a.val; rw [e0]; omega
  | ⟨1, _⟩ => show win0_1.index t (1 : Fin 2) * 512 + 1 * b.val = b.val; rw [e1]; omega

theorem blk2 (c : Dev nD) (t : Fin cfg0.N) (a : Fin 256) (b : Fin 512) :
    (iblk m c 2 t : Vec Ideal S256x512 .f32) (ix2 a b) = V m c main_arg2 (ix2 a b) := by
  obtain ⟨e0, e1⟩ := idx2 t
  show V m c main_arg2 (((cfg0.win 2).blk t).view.emb (ix2 a b)) = V m c main_arg2 (ix2 a b)
  refine congrArg (V m c main_arg2) (funext fun d => Fin.ext ?_)
  match d with
  | ⟨0, _⟩ => show win0_2.index t (0 : Fin 2) * 256 + 1 * a.val = a.val; rw [e0]; omega
  | ⟨1, _⟩ => show win0_2.index t (1 : Fin 2) * 512 + 1 * b.val = b.val; rw [e1]; omega

theorem blk3 (c : Dev nD) (t : Fin cfg0.N) (a : Fin 512) :
    (iblk m c 3 t : Vec Ideal S512 .f32) (ix1 a) = V m c main_arg3 (ix1 a) := by
  have e0 := idx3 t
  show V m c main_arg3 (((cfg0.win 3).blk t).view.emb (ix1 a)) = V m c main_arg3 (ix1 a)
  refine congrArg (V m c main_arg3) (funext fun d => Fin.ext ?_)
  match d with
  | ⟨0, _⟩ => show win0_3.index t (0 : Fin 1) * 512 + 1 * a.val = a.val; rw [e0]; omega

theorem blk4 (c : Dev nD) (t : Fin cfg0.N) (a : Fin 512) :
    (iblk m c 4 t : Vec Ideal S512 .f32) (ix1 a) = V m c main_arg4 (ix1 a) := by
  have e0 := idx4 t
  show V m c main_arg4 (((cfg0.win 4).blk t).view.emb (ix1 a)) = V m c main_arg4 (ix1 a)
  refine congrArg (V m c main_arg4) (funext fun d => Fin.ext ?_)
  match d with
  | ⟨0, _⟩ => show win0_4.index t (0 : Fin 1) * 512 + 1 * a.val = a.val; rw [e0]; omega

theorem blk5 (c : Dev nD) (t : Fin cfg0.N) (u : Fin 1) (a : Fin 256) (b : Fin 512) :
    (iblk m c 5 t : Vec Ideal S1x256x512 .f32) (ix3 u a b) = V m c main_arg13 (ix3 (smp t) a b) := by
  obtain ⟨e0, e1, e2⟩ := idx5 t
  show V m c main_arg13 (((cfg0.win 5).blk t).view.emb (ix3 u a b)) = V m c main_arg13 (ix3 (smp t) a b)
  refine congrArg (V m c main_arg13) (funext fun d => Fin.ext ?_)
  match d with
  | ⟨0, _⟩ => show win0_5.index t (0 : Fin 3) * 1 + 1 * u.val = t.val; rw [e0]; have := u.isLt; omega
  | ⟨1, _⟩ => show win0_5.index t (1 : Fin 3) * 256 + 1 * a.val = a.val; rw [e1]; omega
  | ⟨2, _⟩ => show win0_5.index t (2 : Fin 3) * 512 + 1 * b.val = b.val; rw [e2]; omega

theorem blk6 (c : Dev nD) (t : Fin cfg0.N) (u : Fin 1) (a : Fin 1) (b : Fin 512) :
    (iblk m c 6 t : Vec Ideal S1x1x512 .f32) (ix3 u a b) = V m c main_arg14 (ix3 (smp t) a b) := by
  obtain ⟨e0, e1, e2⟩ := idx6 t
  show V m c main_arg14 (((cfg0.win 6).blk t).view.emb (ix3 u a b)) = V m c main_arg14 (ix3 (smp t) a b)
  refine congrArg (V m c main_arg14) (funext fun d => Fin.ext ?_)
  match d with
  | ⟨0, _⟩ => show win0_6.index t (0 : Fin 3) * 1 + 1 * u.val = t.val; rw [e0]; have := u.isLt; omega
  | ⟨1, _⟩ => show win0_6.index t (1 : Fin 3) * 1 + 1 * a.val = a.val; rw [e1]; omega
  | ⟨2, _⟩ => show win0_6.index t (2 : Fin 3) * 512 + 1 * b.val = b.val; rw [e2]; omega

theorem blk7 (c : Dev nD) (t : Fin cfg0.N) (a : Fin 512) (b : Fin 512) :
    (iblk m c 7 t : Vec Ideal S512x512 .f32) (ix2 a b) = V m c main_arg5 (ix2 a b) := by
  obtain ⟨e0, e1⟩ := idx7 t
  show V m c main_arg5 (((cfg0.win 7).blk t).view.emb (ix2 a b)) = V m c main_arg5 (ix2 a b)
  refine congrArg (V m c main_arg5) (funext fun d => Fin.ext ?_)
  match d with
  | ⟨0, _⟩ => show win0_7.index t (0 : Fin 2) * 512 + 1 * a.val = a.val; rw [e0]; omega
  | ⟨1, _⟩ => show win0_7.index t (1 : Fin 2) * 512 + 1 * b.val = b.val; rw [e1]; omega

theorem blk8 (c : Dev nD) (t : Fin cfg0.N) (a : Fin 512) (b : Fin 512) :
    (iblk m c 8 t : Vec Ideal S512x512 .f32) (ix2 a b) = V m c main_arg6 (ix2 a b) := by
  obtain ⟨e0, e1⟩ := idx8 t
  show V m c main_arg6 (((cfg0.win 8).blk t).view.emb (ix2 a b)) = V m c main_arg6 (ix2 a b)
  refine congrArg (V m c main_arg6) (funext fun d => Fin.ext ?_)
  match d with
  | ⟨0, _⟩ => show win0_8.index t (0 : Fin 2) * 512 + 1 * a.val = a.val; rw [e0]; omega
  | ⟨1, _⟩ => show win0_8.index t (1 : Fin 2) * 512 + 1 * b.val = b.val; rw [e1]; omega

theorem blk9 (c : Dev nD) (t : Fin cfg0.N) (a : Fin 512) :
    (iblk m c 9 t : Vec Ideal S512 .f32) (ix1 a) = V m c main_arg7 (ix1 a) := by
  have e0 := idx9 t
  show V m c main_arg7 (((cfg0.win 9).blk t).view.emb (ix1 a)) = V m c main_arg7 (ix1 a)
  refine congrArg (V m c main_arg7) (funext fun d => Fin.ext ?_)
  match d with
  | ⟨0, _⟩ => show win0_9.index t (0 : Fin 1) * 512 + 1 * a.val = a.val; rw [e0]; omega

theorem blk10 (c : Dev nD) (t : Fin cfg0.N) (a : Fin 512) :
    (iblk m c 10 t : Vec Ideal S512 .f32) (ix1 a) = V m c main_arg8 (ix1 a) := by
  have e0 := idx10 t
  show V m c main_arg8 (((cfg0.win 10).blk t).view.emb (ix1 a)) = V m c main_arg8 (ix1 a)
  refine congrArg (V m c main_arg8) (funext fun d => Fin.ext ?_)
  match d with
  | ⟨0, _⟩ => show win0_10.index t (0 : Fin 1) * 512 + 1 * a.val = a.val; rw [e0]; omega

theorem blk11 (c : Dev nD) (t : Fin cfg0.N) (u : Fin 1) (a : Fin 512) (b : Fin 512) :
    (iblk m c 11 t : Vec Ideal S1x512x512 .f32) (ix3 u a b) = V m c main_arg15 (ix3 (smp t) a b) := by
  obtain ⟨e0, e1, e2⟩ := idx11 t
  show V m c main_arg15 (((cfg0.win 11).blk t).view.emb (ix3 u a b)) = V m c main_arg15 (ix3 (smp t) a b)
  refine congrArg (V m c main_arg15) (funext fun d => Fin.ext ?_)
  match d with
  | ⟨0, _⟩ => show win0_11.index t (0 : Fin 3) * 1 + 1 * u.val = t.val; rw [e0]; have := u.isLt; omega
  | ⟨1, _⟩ => show win0_11.index t (1 : Fin 3) * 512 + 1 * a.val = a.val; rw [e1]; omega
  | ⟨2, _⟩ => show win0_11.index t (2 : Fin 3) * 512 + 1 * b.val = b.val; rw [e2]; omega

theorem blk12 (c : Dev nD) (t : Fin cfg0.N) (u : Fin 1) (a : Fin 1) (b : Fin 512) :
    (iblk m c 12 t : Vec Ideal S1x1x512 .f32) (ix3 u a b) = V m c main_arg16 (ix3 (smp t) a b) := by
  obtain ⟨e0, e1, e2⟩ := idx12 t
  show V m c main_arg16 (((cfg0.win 12).blk t).view.emb (ix3 u a b)) = V m c main_arg16 (ix3 (smp t) a b)
  refine congrArg (V m c main_arg16) (funext fun d => Fin.ext ?_)
  match d with
  | ⟨0, _⟩ => show win0_12.index t (0 : Fin 3) * 1 + 1 * u.val = t.val; rw [e0]; have := u.isLt; omega
  | ⟨1, _⟩ => show win0_12.index t (1 : Fin 3) * 1 + 1 * a.val = a.val; rw [e1]; omega
  | ⟨2, _⟩ => show win0_12.index t (2 : Fin 3) * 512 + 1 * b.val = b.val; rw [e2]; omega

theorem blk13 (c : Dev nD) (t : Fin cfg0.N) (a : Fin 512) (b : Fin 64) :
    (iblk m c 13 t : Vec Ideal S512x64 .f32) (ix2 a b) = V m c main_arg9 (ix2 a b) := by
  obtain ⟨e0, e1⟩ := idx13 t
  show V m c main_arg9 (((cfg0.win 13).blk t).view.emb (ix2 a b)) = V m c main_arg9 (ix2 a b)
  refine congrArg (V m c main_arg9) (funext fun d => Fin.ext ?_)
  match d with
  | ⟨0, _⟩ => show win0_13.index t (0 : Fin 2) * 512 + 1 * a.val = a.val; rw [e0]; omega
  | ⟨1, _⟩ => show win0_13.index t (1 : Fin 2) * 64 + 1 * b.val = b.val; rw [e1]; omega

theorem blk14 (c : Dev nD) (t : Fin cfg0.N) (a : Fin 512) (b : Fin 64) :
    (iblk m c 14 t : Vec Ideal S512x64 .f32) (ix2 a b) = V m c main_arg10 (ix2 a b) := by
  obtain ⟨e0, e1⟩ := idx14 t
  show V m c main_arg10 (((cfg0.win 14).blk t).view.emb (ix2 a b)) = V m c main_arg10 (ix2 a b)
  refine congrArg (V m c main_arg10) (funext fun d => Fin.ext ?_)
  match d with
  | ⟨0, _⟩ => show win0_14.index t (0 : Fin 2) * 512 + 1 * a.val = a.val; rw [e0]; omega
  | ⟨1, _⟩ => show win0_14.index t (1 : Fin 2) * 64 + 1 * b.val = b.val; rw [e1]; omega

theorem blk15 (c : Dev nD) (t : Fin cfg0.N) (a : Fin 64) :
    (iblk m c 15 t : Vec Ideal S64 .f32) (ix1 a) = V m c main_arg11 (ix1 a) := by
  have e0 := idx15 t
  show V m c main_arg11 (((cfg0.win 15).blk t).view.emb (ix1 a)) = V m c main_arg11 (ix1 a)
  refine congrArg (V m c main_arg11) (funext fun d => Fin.ext ?_)
  match d with
  | ⟨0, _⟩ => show win0_15.index t (0 : Fin 1) * 64 + 1 * a.val = a.val; rw [e0]; omega

theorem blk16 (c : Dev nD) (t : Fin cfg0.N) (a : Fin 64) :
    (iblk m c 16 t : Vec Ideal S64 .f32) (ix1 a) = V m c main_arg12 (ix1 a) := by
  have e0 := idx16 t
  show V m c main_arg12 (((cfg0.win 16).blk t).view.emb (ix1 a)) = V m c main_arg12 (ix1 a)
  refine congrArg (V m c main_arg12) (funext fun d => Fin.ext ?_)
  match d with
  | ⟨0, _⟩ => show win0_16.index t (0 : Fin 1) * 64 + 1 * a.val = a.val; rw [e0]; omega

theorem blk17 (c : Dev nD) (t : Fin cfg0.N) (u : Fin 1) (a : Fin 512) (b : Fin 64) :
    (iblk m c 17 t : Vec Ideal S1x512x64 .f32) (ix3 u a b) = V m c main_arg17 (ix3 (smp t) a b) := by
  obtain ⟨e0, e1, e2⟩ := idx17 t
  show V m c main_arg17 (((cfg0.win 17).blk t).view.emb (ix3 u a b)) = V m c main_arg17 (ix3 (smp t) a b)
  refine congrArg (V m c main_arg17) (funext fun d => Fin.ext ?_)
  match d with
  | ⟨0, _⟩ => show win0_17.index t (0 : Fin 3) * 1 + 1 * u.val = t.val; rw [e0]; have := u.isLt; omega
  | ⟨1, _⟩ => show win0_17.index t (1 : Fin 3) * 512 + 1 * a.val = a.val; rw [e1]; omega
  | ⟨2, _⟩ => show win0_17.index t (2 : Fin 3) * 64 + 1 * b.val = b.val; rw [e2]; omega

theorem blk18 (c : Dev nD) (t : Fin cfg0.N) (u : Fin 1) (a : Fin 1) (b : Fin 64) :
    (iblk m c 18 t : Vec Ideal S1x1x64 .f32) (ix3 u a b) = V m c main_arg18 (ix3 (smp t) a b) := by
  obtain ⟨e0, e1, e2⟩ := idx18 t
  show V m c main_arg18 (((cfg0.win 18).blk t).view.emb (ix3 u a b)) = V m c main_arg18 (ix3 (smp t) a b)
  refine congrArg (V m c main_arg18) (funext fun d => Fin.ext ?_)
  match d with
  | ⟨0, _⟩ => show win0_18.index t (0 : Fin 3) * 1 + 1 * u.val = t.val; rw [e0]; have := u.isLt; omega
  | ⟨1, _⟩ => show win0_18.index t (1 : Fin 3) * 1 + 1 * a.val = a.val; rw [e1]; omega
  | ⟨2, _⟩ => show win0_18.index t (2 : Fin 3) * 64 + 1 * b.val = b.val; rw [e2]; omega

end Cert.KernelIdeal.Whole

end
-- ==== Proof.KArray.lean ====
/-
  From the blocks to the array: the kernel's result is `Spec.net` of its arguments.

  At grid point t the output window's block is slab t of the [32, 2048, 64] result array (`idx19`, `emb19`). An
  entry of an input block is the argument's entry, at sample t for a noise array (the block-read lemmas
  `blk0` … `blk18`), so what the body leaves in the output's staging buffer (`Pieces.out_eq`: `Pieces.blockFn` of
  the blocks) is slab t of `Spec.net` of the arguments (`flushed_eq`). The 32 slabs cover the result array
  (`covered`), which therefore ends holding `Spec.net` (`final`, `run`).
-/
import proofs.«130882_j31464930411175_1_alg».proof.Proof.Gen.KernelIdeal.Value
import proofs.«130882_j31464930411175_1_alg».proof.Proof.KPieces
import proofs.«130882_j31464930411175_1_alg».proof.Proof.KBlocks

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The nineteen arguments as core `c` finds them at launch. -/
def argsOf (c : Dev nD) : Spec.Args where
  x   := m ((c : Thread nD τ).loc main_arg0)
  wm0 := m ((c : Thread nD τ).loc main_arg1)
  wl0 := m ((c : Thread nD τ).loc main_arg2)
  bm0 := m ((c : Thread nD τ).loc main_arg3)
  bl0 := m ((c : Thread nD τ).loc main_arg4)
  wm1 := m ((c : Thread nD τ).loc main_arg5)
  wl1 := m ((c : Thread nD τ).loc main_arg6)
  bm1 := m ((c : Thread nD τ).loc main_arg7)
  bl1 := m ((c : Thread nD τ).loc main_arg8)
  wm2 := m ((c : Thread nD τ).loc main_arg9)
  wl2 := m ((c : Thread nD τ).loc main_arg10)
  bm2 := m ((c : Thread nD τ).loc main_arg11)
  bl2 := m ((c : Thread nD τ).loc main_arg12)
  zw0 := m ((c : Thread nD τ).loc main_arg13)
  zb0 := m ((c : Thread nD τ).loc main_arg14)
  zw1 := m ((c : Thread nD τ).loc main_arg15)
  zb1 := m ((c : Thread nD τ).loc main_arg16)
  zw2 := m ((c : Thread nD τ).loc main_arg17)
  zb2 := m ((c : Thread nD τ).loc main_arg18)

/-- The output window's block index at point t: sample t's slab. -/
theorem idx19 : ∀ t : Fin cfg0.N, win0_19.index t (0 : Fin 3) = t.val ∧ win0_19.index t (1 : Fin 3) = 0 ∧ win0_19.index t (2 : Fin 3) = 0 :=
  (by decide +kernel : ∀ t : Fin grid0.N, _)

/-- Where the output block's entry (u, ρ, o) sits in the result array: sample t, row ρ, column o. -/
theorem emb19 (t : Fin cfg0.N) (u : Fin 1) (r : Fin 2048) (o : Fin 64) :
    ((cfg0.win 19).blk t).view.emb (ix3 u r o) = ix3 (smp t) r o := by
  obtain ⟨e0, e1, e2⟩ := idx19 t
  funext d
  apply Fin.ext
  match d with
  | ⟨0, _⟩ => show win0_19.index t (0 : Fin 3) * 1 + 1 * u.val = t.val; rw [e0]; have := u.isLt; omega
  | ⟨1, _⟩ => show win0_19.index t (1 : Fin 3) * 2048 + 1 * r.val = r.val; rw [e1]; omega
  | ⟨2, _⟩ => show win0_19.index t (2 : Fin 3) * 64 + 1 * o.val = o.val; rw [e2]; omega

/-! ## What a point writes back, and the array -/

/-- WHAT POINT t WRITES BACK is slab t of the network of the arguments. -/
theorem flushed_eq (c : Dev nD) (t : Fin cfg0.N) :
    (dats m 0 c).flushed 19 t = ((cfg0.win 19).blk t).view.read (Elt Ideal) (Spec.net (argsOf m c)) := by
  rw [Value.flushed19_A]
  refine funext fun (y : S1x2048x64.Idx) => ?_
  obtain ⟨u, r, o, rfl⟩ : ∃ (u : Fin 1) (r : Fin 2048) (o : Fin 64), y = ix3 u r o := ⟨y 0, y 1, y 2, eq_ix3 y⟩
  show out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 u r o)
      = Spec.net (argsOf m c) (((cfg0.win 19).blk t).view.emb (ix3 u r o))
  refine (Pieces.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 u r o)).trans ?_
  refine (Pieces.blockFn_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) u r o).trans ?_
  rw [emb19 t u r o, Spec.net_apply]
  unfold Spec.netAt
  simp only [blk0, blk1, blk2, blk3, blk4, blk5, blk6, blk7, blk8, blk9, blk10, blk11, blk12, blk13, blk14, blk15, blk16, blk17, blk18]
  rfl

/-- An index of the result array is in point t's block iff each coordinate is in the block's range on its axis. -/
theorem mem_blk19 (t : Fin cfg0.N) (i : S32x2048x64.Idx) :
    i ∈ ((cfg0.win 19).blk t).view.set ↔ ∀ a : Fin 3, win0_19.index t a * S1x2048x64.size a ≤ (i a).val ∧ (i a).val < win0_19.index t a * S1x2048x64.size a + S1x2048x64.size a := by
  show i ∈ ((View.whole main_v0).slice (win0_19.rect t)).set ↔ _
  rw [View.set_slice_whole, Rect.mem_set_unit]
  exact Iff.rfl

/-- Every index of the result array is in the block of its sample's point. -/
theorem covered (i : S32x2048x64.Idx) :
    ∃ t : Fin cfg0.N, (cfg0.win 19).flush t = true ∧ i ∈ ((cfg0.win 19).blk t).view.set := by
  have hN : grid0.N = 32 := N_0
  have hi0 : (i 0).val < 32 := (i 0).isLt
  have hi1 : (i 1).val < 2048 := (i 1).isLt
  have hi2 : (i 2).val < 64 := (i 2).isLt
  let t : Fin cfg0.N := ⟨(i 0).val, by show (i 0).val < grid0.N; omega⟩
  obtain ⟨e0, e1, e2⟩ := idx19 t
  refine ⟨t, flush0_19 t, ?_⟩
  rw [mem_blk19]
  intro a
  match a with
  | ⟨0, _⟩ => show win0_19.index t (0 : Fin 3) * 1 ≤ (i 0).val ∧ (i 0).val < win0_19.index t (0 : Fin 3) * 1 + 1; rw [e0]; show (i 0).val * 1 ≤ (i 0).val ∧ (i 0).val < (i 0).val * 1 + 1; omega
  | ⟨1, _⟩ => show win0_19.index t (1 : Fin 3) * 2048 ≤ (i 1).val ∧ (i 1).val < win0_19.index t (1 : Fin 3) * 2048 + 2048; rw [e1]; omega
  | ⟨2, _⟩ => show win0_19.index t (2 : Fin 3) * 64 ≤ (i 2).val ∧ (i 2).val < win0_19.index t (2 : Fin 3) * 64 + 64; rw [e2]; omega

/-- THE RESULT ARRAY after the run is the network of the arguments. -/
theorem final (c : Dev nD) : (dats m 0 c).arrAt 19 cfg0.N = Spec.net (argsOf m c) :=
  (dats m 0 c).arrAt_eq_of_cover 19 (Spec.net (argsOf m c)) (fun t _ => flushed_eq m c t) covered

/-- The kernel's run: every weakly fair execution terminates with the result array at `Spec.net` of the arguments and
    the arguments unchanged. -/
theorem run : θ_run defs (onTc (τ := τ) (main (F := Ideal))) ⟨m, fun _ => 0, ρ⟩ fun r => ∀ c : Dev nD,
      r.2.mem ((c : Thread nD τ).loc main_v0) = Spec.net (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (Value.run_blocks m ρ)

end Cert.KernelIdeal.Whole

end
-- ==== Proof.RefSpec.lean ====
/-
  The reference program is `Spec.net`.

  The reference is jnp's own spelling of the network: the batch broadcast over the 32 samples, per layer the
  sampled weights `z_w · exp(w_log_std) + w_mean` and biases built by broadcasts of the shared arrays over the
  sample axis, an einsum over the layer's input axis (a contraction batched over the samples), the bias broadcast
  over the rows, and `tanh` after the first two layers. Reading each operation at an index (the generated
  read-at-an-index lemmas) turns every broadcast into a choice of coordinates and every contraction into a sum
  over the contracted coordinate; what is left is `Spec.net` word for word.
-/
import proofs.«130882_j31464930411175_1_alg».proof.Proof.Gen.ReferenceIdeal.Read
import proofs.«130882_j31464930411175_1_alg».proof.Proof.Spec

noncomputable section

namespace Cert.ReferenceIdeal.RefSpec

open Cert.ReferenceIdeal Cert.ReferenceIdeal.Gen Cert.ReferenceIdeal.Read Idealize.ShloMosaic Idealize.ShloMosaic.ValueIdx
open Cert.Spec

/-! ## Where the broadcasts read: the composed index maps at an index given by coordinates -/

theorem bx (s : Fin 32) (r : Fin 2048) (k : Fin 256) : idx_main_v0 (idx_main_v1 (ix3 s r k)) = ix2 r k :=
  funext fun d => Fin.ext (by match d with | ⟨0, _⟩ => rfl | ⟨1, _⟩ => rfl)

theorem bw0l (s : Fin 32) (a : Fin 256) (b : Fin 512) : idx_main_v3 (idx_main_v4 (ix3 s a b)) = ix2 a b :=
  funext fun d => Fin.ext (by match d with | ⟨0, _⟩ => rfl | ⟨1, _⟩ => rfl)
theorem bw0m (s : Fin 32) (a : Fin 256) (b : Fin 512) : idx_main_v6 (idx_main_v7 (ix3 s a b)) = ix2 a b :=
  funext fun d => Fin.ext (by match d with | ⟨0, _⟩ => rfl | ⟨1, _⟩ => rfl)
theorem bb0l (s : Fin 32) (u : Fin 1) (j : Fin 512) : idx_main_v10 (idx_main_v11 (ix3 s u j)) = ix1 j :=
  funext fun d => Fin.ext (by match d with | ⟨0, _⟩ => rfl)
theorem bb0m (s : Fin 32) (u : Fin 1) (j : Fin 512) : idx_main_v13 (idx_main_v14 (ix3 s u j)) = ix1 j :=
  funext fun d => Fin.ext (by match d with | ⟨0, _⟩ => rfl)

theorem bw1l (s : Fin 32) (a : Fin 512) (b : Fin 512) : idx_main_v21 (idx_main_v22 (ix3 s a b)) = ix2 a b :=
  funext fun d => Fin.ext (by match d with | ⟨0, _⟩ => rfl | ⟨1, _⟩ => rfl)
theorem bw1m (s : Fin 32) (a : Fin 512) (b : Fin 512) : idx_main_v24 (idx_main_v25 (ix3 s a b)) = ix2 a b :=
  funext fun d => Fin.ext (by match d with | ⟨0, _⟩ => rfl | ⟨1, _⟩ => rfl)
theorem bb1l (s : Fin 32) (u : Fin 1) (j : Fin 512) : idx_main_v28 (idx_main_v29 (ix3 s u j)) = ix1 j :=
  funext fun d => Fin.ext (by match d with | ⟨0, _⟩ => rfl)
theorem bb1m (s : Fin 32) (u : Fin 1) (j : Fin 512) : idx_main_v31 (idx_main_v32 (ix3 s u j)) = ix1 j :=
  funext fun d => Fin.ext (by match d with | ⟨0, _⟩ => rfl)

theorem bw2l (s : Fin 32) (a : Fin 512) (b : Fin 64) : idx_main_v39 (idx_main_v40 (ix3 s a b)) = ix2 a b :=
  funext fun d => Fin.ext (by match d with | ⟨0, _⟩ => rfl | ⟨1, _⟩ => rfl)
theorem bw2m (s : Fin 32) (a : Fin 512) (b : Fin 64) : idx_main_v42 (idx_main_v43 (ix3 s a b)) = ix2 a b :=
  funext fun d => Fin.ext (by match d with | ⟨0, _⟩ => rfl | ⟨1, _⟩ => rfl)
theorem bb2l (s : Fin 32) (u : Fin 1) (j : Fin 64) : idx_main_v46 (idx_main_v47 (ix3 s u j)) = ix1 j :=
  funext fun d => Fin.ext (by match d with | ⟨0, _⟩ => rfl)
theorem bb2m (s : Fin 32) (u : Fin 1) (j : Fin 64) : idx_main_v49 (idx_main_v50 (ix3 s u j)) = ix1 j :=
  funext fun d => Fin.ext (by match d with | ⟨0, _⟩ => rfl)

/-- A bias row broadcast over the batch rows reads row 0 of the sample's bias. -/
theorem rb0 (s : Fin 32) (r : Fin 2048) (j : Fin 512) : idx_main_v17 (ix3 s r j) = ix3 s (0 : Fin 1) j :=
  funext fun d => Fin.ext (by match d with | ⟨0, _⟩ => rfl | ⟨1, _⟩ => rfl | ⟨2, _⟩ => rfl)
theorem rb1 (s : Fin 32) (r : Fin 2048) (j : Fin 512) : idx_main_v35 (ix3 s r j) = ix3 s (0 : Fin 1) j :=
  funext fun d => Fin.ext (by match d with | ⟨0, _⟩ => rfl | ⟨1, _⟩ => rfl | ⟨2, _⟩ => rfl)
theorem rb2 (s : Fin 32) (r : Fin 2048) (j : Fin 64) : idx_main_v53 (ix3 s r j) = ix3 s (0 : Fin 1) j :=
  funext fun d => Fin.ext (by match d with | ⟨0, _⟩ => rfl | ⟨1, _⟩ => rfl | ⟨2, _⟩ => rfl)

/-- The operand indices of the three batched contractions. -/
theorem cl0 (s : Fin 32) (r : Fin 2048) (j : Fin 512) (k : Fin 256) : lidx_main_v16 (ix3 s r j) k = ix3 s r k :=
  funext fun d => Fin.ext (by match d with | ⟨0, _⟩ => rfl | ⟨1, _⟩ => rfl | ⟨2, _⟩ => rfl)
theorem cr0 (s : Fin 32) (r : Fin 2048) (j : Fin 512) (k : Fin 256) : ridx_main_v16 (ix3 s r j) k = ix3 s k j :=
  funext fun d => Fin.ext (by match d with | ⟨0, _⟩ => rfl | ⟨1, _⟩ => rfl | ⟨2, _⟩ => rfl)
theorem cl1 (s : Fin 32) (r : Fin 2048) (j : Fin 512) (k : Fin 512) : lidx_main_v34 (ix3 s r j) k = ix3 s r k :=
  funext fun d => Fin.ext (by match d with | ⟨0, _⟩ => rfl | ⟨1, _⟩ => rfl | ⟨2, _⟩ => rfl)
theorem cr1 (s : Fin 32) (r : Fin 2048) (j : Fin 512) (k : Fin 512) : ridx_main_v34 (ix3 s r j) k = ix3 s k j :=
  funext fun d => Fin.ext (by match d with | ⟨0, _⟩ => rfl | ⟨1, _⟩ => rfl | ⟨2, _⟩ => rfl)
theorem cl2 (s : Fin 32) (r : Fin 2048) (j : Fin 64) (k : Fin 512) : lidx_main_v52 (ix3 s r j) k = ix3 s r k :=
  funext fun d => Fin.ext (by match d with | ⟨0, _⟩ => rfl | ⟨1, _⟩ => rfl | ⟨2, _⟩ => rfl)
theorem cr2 (s : Fin 32) (r : Fin 2048) (j : Fin 64) (k : Fin 512) : ridx_main_v52 (ix3 s r j) k = ix3 s k j :=
  funext fun d => Fin.ext (by match d with | ⟨0, _⟩ => rfl | ⟨1, _⟩ => rfl | ⟨2, _⟩ => rfl)

/-! ## The operands of the contractions at an index -/

variable (A : Spec.Args)

/-- The batch broadcast over the samples reads the batch. -/
theorem x_at (s : Fin 32) (r : Fin 2048) (k : Fin 256) : val_main_v1 (F := Ideal) A.x (ix3 s r k) = A.x (ix2 r k) := by
  rw [val_main_v1_apply, val_main_v0_apply, bx]

theorem w0_at (s : Fin 32) (a : Fin 256) (b : Fin 512) :
    val_main_v8 (F := Ideal) A.wm0 A.wl0 A.zw0 (ix3 s a b) = sampled (A.zw0 (ix3 s a b)) (A.wl0 (ix2 a b)) (A.wm0 (ix2 a b)) := by
  rw [val_main_v8_apply, val_main_v5_apply, val_main_v4_apply, val_main_v3_apply, val_main_v2_apply, val_main_v7_apply,
    val_main_v6_apply, bw0l, bw0m]
  rfl

theorem b0_at (s : Fin 32) (u : Fin 1) (j : Fin 512) :
    val_main_v15 (F := Ideal) A.bm0 A.bl0 A.zb0 (ix3 s u j) = sampled (A.zb0 (ix3 s u j)) (A.bl0 (ix1 j)) (A.bm0 (ix1 j)) := by
  rw [val_main_v15_apply, val_main_v12_apply, val_main_v11_apply, val_main_v10_apply, val_main_v9_apply, val_main_v14_apply,
    val_main_v13_apply, bb0l, bb0m]
  rfl

theorem w1_at (s : Fin 32) (a : Fin 512) (b : Fin 512) :
    val_main_v26 (F := Ideal) A.wm1 A.wl1 A.zw1 (ix3 s a b) = sampled (A.zw1 (ix3 s a b)) (A.wl1 (ix2 a b)) (A.wm1 (ix2 a b)) := by
  rw [val_main_v26_apply, val_main_v23_apply, val_main_v22_apply, val_main_v21_apply, val_main_v20_apply, val_main_v25_apply,
    val_main_v24_apply, bw1l, bw1m]
  rfl

theorem b1_at (s : Fin 32) (u : Fin 1) (j : Fin 512) :
    val_main_v33 (F := Ideal) A.bm1 A.bl1 A.zb1 (ix3 s u j) = sampled (A.zb1 (ix3 s u j)) (A.bl1 (ix1 j)) (A.bm1 (ix1 j)) := by
  rw [val_main_v33_apply, val_main_v30_apply, val_main_v29_apply, val_main_v28_apply, val_main_v27_apply, val_main_v32_apply,
    val_main_v31_apply, bb1l, bb1m]
  rfl

theorem w2_at (s : Fin 32) (a : Fin 512) (b : Fin 64) :
    val_main_v44 (F := Ideal) A.wm2 A.wl2 A.zw2 (ix3 s a b) = sampled (A.zw2 (ix3 s a b)) (A.wl2 (ix2 a b)) (A.wm2 (ix2 a b)) := by
  rw [val_main_v44_apply, val_main_v41_apply, val_main_v40_apply, val_main_v39_apply, val_main_v38_apply, val_main_v43_apply,
    val_main_v42_apply, bw2l, bw2m]
  rfl

theorem b2_at (s : Fin 32) (u : Fin 1) (j : Fin 64) :
    val_main_v51 (F := Ideal) A.bm2 A.bl2 A.zb2 (ix3 s u j) = sampled (A.zb2 (ix3 s u j)) (A.bl2 (ix1 j)) (A.bm2 (ix1 j)) := by
  rw [val_main_v51_apply, val_main_v48_apply, val_main_v47_apply, val_main_v46_apply, val_main_v45_apply, val_main_v50_apply,
    val_main_v49_apply, bb2l, bb2m]
  rfl

/-! ## The layers -/

/-- After the first layer the reference holds `Spec.hid1`. -/
theorem hid1_at (s : Fin 32) (r : Fin 2048) (j : Fin 512) :
    val_main_v19 (F := Ideal) A.x A.wm0 A.wl0 A.bm0 A.bl0 A.zw0 A.zb0 (ix3 s r j) = hid1 A s r j := by
  rw [val_main_v19_apply, val_main_v18_apply, val_main_v16_apply, val_main_v17_apply, rb0, b0_at]
  show Ideal.tanh ((∑ k : Fin 256, val_main_v1 (F := Ideal) A.x (lidx_main_v16 (ix3 s r j) k)
      * val_main_v8 (F := Ideal) A.wm0 A.wl0 A.zw0 (ridx_main_v16 (ix3 s r j) k)) + _) = _
  unfold hid1
  refine congrArg (fun z => Ideal.tanh (z + _)) (Finset.sum_congr rfl fun k _ => ?_)
  rw [cl0, cr0, x_at, w0_at]

/-- After the second layer it holds `Spec.hid2`. -/
theorem hid2_at (s : Fin 32) (r : Fin 2048) (j : Fin 512) :
    val_main_v37 (F := Ideal) A.x A.wm0 A.wl0 A.bm0 A.bl0 A.wm1 A.wl1 A.bm1 A.bl1 A.zw0 A.zb0 A.zw1 A.zb1 (ix3 s r j) = hid2 A s r j := by
  rw [val_main_v37_apply, val_main_v36_apply, val_main_v34_apply, val_main_v35_apply, rb1, b1_at]
  show Ideal.tanh ((∑ k : Fin 512, val_main_v19 (F := Ideal) A.x A.wm0 A.wl0 A.bm0 A.bl0 A.zw0 A.zb0 (lidx_main_v34 (ix3 s r j) k)
      * val_main_v26 (F := Ideal) A.wm1 A.wl1 A.zw1 (ridx_main_v34 (ix3 s r j) k)) + _) = _
  unfold hid2
  refine congrArg (fun z => Ideal.tanh (z + _)) (Finset.sum_congr rfl fun k _ => ?_)
  rw [cl1, cr1, hid1_at, w1_at]

/-- The result, at an index given by coordinates. -/
theorem out_at (s : Fin 32) (r : Fin 2048) (o : Fin 64) :
    val_main_v54 (F := Ideal) A.x A.wm0 A.wl0 A.bm0 A.bl0 A.wm1 A.wl1 A.bm1 A.bl1 A.wm2 A.wl2 A.bm2 A.bl2
      A.zw0 A.zb0 A.zw1 A.zb1 A.zw2 A.zb2 (ix3 s r o) = netAt A s r o := by
  rw [val_main_v54_apply, val_main_v52_apply, val_main_v53_apply, rb2, b2_at, netAt_eq]
  show (∑ k : Fin 512, val_main_v37 (F := Ideal) A.x A.wm0 A.wl0 A.bm0 A.bl0 A.wm1 A.wl1 A.bm1 A.bl1 A.zw0 A.zb0 A.zw1 A.zb1 (lidx_main_v52 (ix3 s r o) k)
      * val_main_v44 (F := Ideal) A.wm2 A.wl2 A.zw2 (ridx_main_v52 (ix3 s r o) k)) + _ = _
  refine congrArg (· + _) (Finset.sum_congr rfl fun k _ => ?_)
  rw [cl2, cr2, hid2_at, w2_at]

/-- THE REFERENCE'S RESULT is the network of its arguments. -/
theorem ref_eq :
    val_main_v54 (F := Ideal) A.x A.wm0 A.wl0 A.bm0 A.bl0 A.wm1 A.wl1 A.bm1 A.bl1 A.wm2 A.wl2 A.bm2 A.bl2
      A.zw0 A.zb0 A.zw1 A.zb1 A.zw2 A.zb2 = net A := by
  funext i
  obtain ⟨s, r, o, rfl⟩ : ∃ (s : Fin 32) (r : Fin 2048) (o : Fin 64), i = ix3 s r o := ⟨i 0, i 1, i 2, eq_ix3 i⟩
  rw [net_apply]
  exact out_at A s r o

/-- The nineteen arguments as core `c` finds them at launch. -/
def argsOf (m : (ℓ : Loc nD τ sig) → Buf (Elt Ideal) ℓ) (c : Dev nD) : Spec.Args where
  x   := m ((c.tc : Thread nD τ).loc main_arg0)
  wm0 := m ((c.tc : Thread nD τ).loc main_arg1)
  wl0 := m ((c.tc : Thread nD τ).loc main_arg2)
  bm0 := m ((c.tc : Thread nD τ).loc main_arg3)
  bl0 := m ((c.tc : Thread nD τ).loc main_arg4)
  wm1 := m ((c.tc : Thread nD τ).loc main_arg5)
  wl1 := m ((c.tc : Thread nD τ).loc main_arg6)
  bm1 := m ((c.tc : Thread nD τ).loc main_arg7)
  bl1 := m ((c.tc : Thread nD τ).loc main_arg8)
  wm2 := m ((c.tc : Thread nD τ).loc main_arg9)
  wl2 := m ((c.tc : Thread nD τ).loc main_arg10)
  bm2 := m ((c.tc : Thread nD τ).loc main_arg11)
  bl2 := m ((c.tc : Thread nD τ).loc main_arg12)
  zw0 := m ((c.tc : Thread nD τ).loc main_arg13)
  zb0 := m ((c.tc : Thread nD τ).loc main_arg14)
  zw1 := m ((c.tc : Thread nD τ).loc main_arg15)
  zb1 := m ((c.tc : Thread nD τ).loc main_arg16)
  zw2 := m ((c.tc : Thread nD τ).loc main_arg17)
  zb2 := m ((c.tc : Thread nD τ).loc main_arg18)

/-- The reference's result term, from the launch memory, is the network of the arguments. -/
theorem result_eq (m : (ℓ : Loc nD τ sig) → Buf (Elt Ideal) ℓ) (c : Dev nD) :
    val_main_v54 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) (m ((c.tc : Thread nD τ).loc main_arg15)) (m ((c.tc : Thread nD τ).loc main_arg16))
      (m ((c.tc : Thread nD τ).loc main_arg17)) (m ((c.tc : Thread nD τ).loc main_arg18))
      = net (argsOf m c) :=
  ref_eq (argsOf m c)

end Cert.ReferenceIdeal.RefSpec

end
-- ==== Proof.lean ====
/-
  Thirty-two Monte-Carlo samples of a Bayesian three-layer perceptron on a batch of 2048 rows, as one Pallas kernel
  against jnp.

  Both programs compute, for sample s, batch row r and output column o,
      out[s, r, o] = (tanh (tanh (x[r, :] · W₀ˢ + b₀ˢ) · W₁ˢ + b₁ˢ) · W₂ˢ + b₂ˢ)[o]
  with every weight and bias of sample s drawn by reparameterisation, `z · exp (log σ) + μ` (`Spec.net`,
  Proof/Spec.lean). The kernel runs one grid point per sample: it samples the weights once, then walks the batch in
  eight tiles of 256 rows, rounding to bf16 on the way into each matrix-unit product; the reference broadcasts
  everything over the sample axis and uses three batched einsums. Over the extended reals a change of float format
  is the identity and a product into a zero accumulator is the plain sum over the contracted axis, so the two
  programs are the same expression read at an index: no law of arithmetic is used, and the precondition is never
  opened.

  The road: the reference's result is `Spec.net` of its arguments (Proof/RefSpec.lean, over the generated run of
  the reference read one operation at a time); the kernel's arithmetic at an index (Proof/KPay.lean); what the
  body's eight stores leave in the output's staging buffer, as one function of the input blocks
  (Proof/KPieces.lean); the blocks as slabs of the argument arrays (Proof/KBlocks.lean) and the 32 slabs written
  back as the whole result array (Proof/KArray.lean, over the generated frame run with the result array named).
  The three frames are the generated frame runs; the idealization rewrote nothing, so `preserves` is `True`.
-/
import proofs.«130882_j31464930411175_1_alg».proof.Defs
import proofs.«130882_j31464930411175_1_alg».proof.Proof.Gen.Kernel
import proofs.«130882_j31464930411175_1_alg».proof.Proof.Gen.Kernel.Skeleton
import proofs.«130882_j31464930411175_1_alg».proof.Proof.Gen.Kernel.Loops
import proofs.«130882_j31464930411175_1_alg».proof.Proof.Gen.Kernel.Launch
import proofs.«130882_j31464930411175_1_alg».proof.Proof.Gen.Kernel.Points
import proofs.«130882_j31464930411175_1_alg».proof.Proof.Gen.Kernel.Frame
import proofs.«130882_j31464930411175_1_alg».proof.Proof.Gen.KernelIdeal
import proofs.«130882_j31464930411175_1_alg».proof.Proof.Gen.KernelIdeal.Skeleton
import proofs.«130882_j31464930411175_1_alg».proof.Proof.Gen.KernelIdeal.Loops
import proofs.«130882_j31464930411175_1_alg».proof.Proof.Gen.KernelIdeal.Launch
import proofs.«130882_j31464930411175_1_alg».proof.Proof.Gen.KernelIdeal.Points
import proofs.«130882_j31464930411175_1_alg».proof.Proof.Gen.KernelIdeal.Frame
import proofs.«130882_j31464930411175_1_alg».proof.Proof.Gen.ReferenceIdeal
import proofs.«130882_j31464930411175_1_alg».proof.Proof.Gen.Pre_finite_inputs
import proofs.«130882_j31464930411175_1_alg».proof.Proof.Gen.KernelIdeal.Value
import proofs.«130882_j31464930411175_1_alg».proof.Proof.Gen.ReferenceIdeal.Run
import proofs.«130882_j31464930411175_1_alg».proof.Proof.Gen.ReferenceIdeal.Read
import proofs.«130882_j31464930411175_1_alg».proof.Proof.KArray
import proofs.«130882_j31464930411175_1_alg».proof.Proof.RefSpec
import Idealize.ShloMosaic.Adequacy
import Idealize.ShloMosaic.Init

noncomputable section

namespace Cert.Proof

open Idealize.ShloMosaic Idealize.SL.Sem

/-- The word-level kernel's frame: the generated frame run. -/
theorem frame_k : Cert.frame_Kernel := fun m ρ _ => Cert.Kernel.Gen.frame m ρ

/-- The idealized kernel's frame: the generated frame run. -/
theorem frame_ki : Cert.frame_KernelIdeal := fun m ρ _ => Cert.KernelIdeal.Gen.frame m ρ

/-- The reference's frame: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nineteen arguments both programs end with the result array at `Spec.net` of the
    arguments: the kernel by the slabs its 32 grid points write back, the reference by its operations read at an
    index. -/
theorem algebraic : Cert.algebraic_KernelIdeal_ReferenceIdeal := by
  intro m ρ m' ρ' _ hagree
  refine ⟨fun c => Cert.Spec.net (Cert.KernelIdeal.Whole.argsOf m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  have e : Cert.ReferenceIdeal.RefSpec.argsOf m' c = Cert.KernelIdeal.Whole.argsOf m c := by
    obtain ⟨h0, h1, h2, h3, h4, h5, h6, h7, h8, h9, h10, h11, h12, h13, h14, h15, h16, h17, h18⟩ := hagree c
    unfold Cert.ReferenceIdeal.RefSpec.argsOf Cert.KernelIdeal.Whole.argsOf
    rw [h0, h1, h2, h3, h4, h5, h6, h7, h8, h9, h10, h11, h12, h13, h14, h15, h16, h17, h18]
  exact ((Cert.ReferenceIdeal.Read.val_main_v54_eq (F := Ideal) _ _ _ _ _ _ _ _ _ _ _ _ _ _ _ _ _ _ _).trans
    (Cert.ReferenceIdeal.RefSpec.result_eq m' c)).trans (congrArg Cert.Spec.net e)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
